-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x7x7x30 : Shape := ⟨4, ![16384, 7, 7, 30]⟩
abbrev S16384x7x7x8 : Shape := ⟨4, ![16384, 7, 7, 8]⟩
abbrev S_ : Shape := ⟨0, ![]⟩

class Facts : Prop where
  bcast_S_S16384x7x7x30 : S_.BroadcastsInDim S16384x7x7x30 (![] : Fin 0 → Fin S16384x7x7x30.rank)
  reducesTo_S16384x7x7x30_S_d0_1_2_3 : S16384x7x7x30.ReducesTo [0, 1, 2, 3] S_
  h_S_ : 0 < S_.numel
  bcast_S_S16384x7x7x8 : S_.BroadcastsInDim S16384x7x7x8 (![] : Fin 0 → Fin S16384x7x7x8.rank)
  reducesTo_S16384x7x7x8_S_d0_1_2_3 : S16384x7x7x8.ReducesTo [0, 1, 2, 3] S_

variable [Facts]

def fn {F : FTy → Type} [FloatOps F] (main_arg0 : FVec F S16384x7x7x30 .f32) (main_arg1 : FVec F S16384x7x7x8 .f32) : IVec S_ 1 :=
  let main_v0 : FVec F S16384x7x7x30 .f32 := Host.absf main_arg0
  let main_cst : FVec F S_ .f32 := constant S_ .f32 0x7F800000#32
  let main_v1 : FVec F S16384x7x7x30 .f32 := broadcastInDim S16384x7x7x30 ![] bcast_S_S16384x7x7x30 main_cst
  let main_v2 : IVec S16384x7x7x30 1 := cmpf .olt main_v0 main_v1
  let main_c : IVec S_ 1 := constantI S_ 1 1#1
  let main_v3 : IVec S_ 1 := (fun x v => Host.reduce IntOp.andi x v reducesTo_S16384x7x7x30_S_d0_1_2_3 h_S_) main_v2 main_c
  let main_v4 : FVec F S16384x7x7x8 .f32 := Host.absf main_arg1
  let main_cst_0 : FVec F S_ .f32 := constant S_ .f32 0x7F800000#32
  let main_v5 : FVec F S16384x7x7x8 .f32 := broadcastInDim S16384x7x7x8 ![] bcast_S_S16384x7x7x8 main_cst_0
  let main_v6 : IVec S16384x7x7x8 1 := cmpf .olt main_v4 main_v5
  let main_c_1 : IVec S_ 1 := constantI S_ 1 1#1
  let main_v7 : IVec S_ 1 := (fun x v => Host.reduce IntOp.andi x v reducesTo_S16384x7x7x8_S_d0_1_2_3 h_S_) main_v6 main_c_1
  let main_v8 : IVec S_ 1 := andi main_v3 main_v7
  main_v8
-- ==== Kernel.lean ====
abbrev S16384x7x7x30 : Shape := ⟨4, ![16384, 7, 7, 30]⟩
abbrev S16384x7x7x8 : Shape := ⟨4, ![16384, 7, 7, 8]⟩
abbrev S64x8x128 : Shape := ⟨3, ![64, 8, 128]⟩
abbrev S256x7x7x30 : Shape := ⟨4, ![256, 7, 7, 30]⟩
abbrev S256x7x7x8 : Shape := ⟨4, ![256, 7, 7, 8]⟩
abbrev S1x8x128 : Shape := ⟨3, ![1, 8, 128]⟩
abbrev S256x7x7x1 : Shape := ⟨4, ![256, 7, 7, 1]⟩
abbrev S256x7x7 : Shape := ⟨3, ![256, 7, 7]⟩
abbrev S256x7x7x4 : Shape := ⟨4, ![256, 7, 7, 4]⟩
abbrev S256x7x7x20 : Shape := ⟨4, ![256, 7, 7, 20]⟩
abbrev S256x7x7x2 : Shape := ⟨4, ![256, 7, 7, 2]⟩
abbrev S256x7 : Shape := ⟨2, ![256, 7]⟩
abbrev S256x7x1 : Shape := ⟨3, ![256, 7, 1]⟩
abbrev S256x1 : Shape := ⟨2, ![256, 1]⟩
abbrev S256x1x1 : Shape := ⟨3, ![256, 1, 1]⟩
abbrev S1x1 : Shape := ⟨2, ![1, 1]⟩
abbrev S1x1x1 : Shape := ⟨3, ![1, 1, 1]⟩
abbrev S8x128 : Shape := ⟨2, ![8, 128]⟩
abbrev S64x1x1 : Shape := ⟨3, ![64, 1, 1]⟩
abbrev S64 : Shape := ⟨1, ![64]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S16384x7x7x30, .f32⟩
  | .hbm, ⟨1, _⟩ => ⟨S16384x7x7x8, .f32⟩
  | .hbm, ⟨2, _⟩ => ⟨S64x8x128, .f32⟩
  | .hbm, ⟨3, _⟩ => ⟨S64x1x1, .f32⟩
  | .hbm, ⟨4, _⟩ => ⟨S64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S256x7x7x30, .f32⟩
  | .local _ .vmem, ⟨1, _⟩ => ⟨S256x7x7x30, .f32⟩
  | .local _ .vmem, ⟨2, _⟩ => ⟨S256x7x7x8, .f32⟩
  | .local _ .vmem, ⟨3, _⟩ => ⟨S256x7x7x8, .f32⟩
  | .local _ .vmem, ⟨4, _⟩ => ⟨S1x8x128, .f32⟩
  | .local _ .vmem, ⟨5, _⟩ => ⟨S1x8x128, .f32⟩
  | _, _ => ⟨S16384x7x7x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x7x7x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7x7x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x7x7x30_S256x7x7x30_0_0_0_0 : ∀ a, (![0, 0, 0, 0] : Fin 4 → Nat) a + S256x7x7x30.size a ≤ S256x7x7x30.size a
  h_S256x7x7x30 : 0 < S256x7x7x30.numel
  inb_S256x7x7x8_S256x7x7x8_0_0_0_0 : ∀ a, (![0, 0, 0, 0] : Fin 4 → Nat) a + S256x7x7x8.size a ≤ S256x7x7x8.size a
  h_S256x7x7x8 : 0 < S256x7x7x8.numel
  slices_S256x7x7x8_o0_0_0_0_S256x7x7x1 : S256x7x7x8.Slices ![0, 0, 0, 0] S256x7x7x1
  shapeCasts_S256x7x7x1_S256x7x7 : S256x7x7x1.ShapeCasts S256x7x7
  slices_S256x7x7x8_o0_0_0_1_S256x7x7x4 : S256x7x7x8.Slices ![0, 0, 0, 1] S256x7x7x4
  slices_S256x7x7x30_o0_0_0_0_S256x7x7x4 : S256x7x7x30.Slices ![0, 0, 0, 0] S256x7x7x4
  slices_S256x7x7x30_o0_0_0_5_S256x7x7x4 : S256x7x7x30.Slices ![0, 0, 0, 5] S256x7x7x4
  slices_S256x7x7x30_o0_0_0_4_S256x7x7x1 : S256x7x7x30.Slices ![0, 0, 0, 4] S256x7x7x1
  slices_S256x7x7x30_o0_0_0_9_S256x7x7x1 : S256x7x7x30.Slices ![0, 0, 0, 9] S256x7x7x1
  slices_S256x7x7x4_o0_0_0_0_S256x7x7x1 : S256x7x7x4.Slices ![0, 0, 0, 0] S256x7x7x1
  slices_S256x7x7x4_o0_0_0_1_S256x7x7x1 : S256x7x7x4.Slices ![0, 0, 0, 1] S256x7x7x1
  slices_S256x7x7x4_o0_0_0_2_S256x7x7x1 : S256x7x7x4.Slices ![0, 0, 0, 2] S256x7x7x1
  slices_S256x7x7x4_o0_0_0_3_S256x7x7x1 : S256x7x7x4.Slices ![0, 0, 0, 3] S256x7x7x1
  slices_S256x7x7x30_o0_0_0_10_S256x7x7x20 : S256x7x7x30.Slices ![0, 0, 0, 10] S256x7x7x20
  iota_S256x7x7x20_d3_w32 : S256x7x7x20.Iotas .tc 32 [3]
  shapeCasts_S256x7x7_S256x7x7x1 : S256x7x7.ShapeCasts S256x7x7x1
  broadcasts_S256x7x7x1_S256x7x7x20 : S256x7x7x1.Broadcasts S256x7x7x20
  natLt_1_32 : 1 < 32
  reduces_S256x7x7x20_S256x7x7 : S256x7x7x20.Reduces [3] S256x7x7
  slices_S256x7x7x4_o0_0_0_0_S256x7x7x2 : S256x7x7x4.Slices ![0, 0, 0, 0] S256x7x7x2
  reduces_S256x7x7x2_S256x7x7 : S256x7x7x2.Reduces [3] S256x7x7
  slices_S256x7x7x4_o0_0_0_2_S256x7x7x2 : S256x7x7x4.Slices ![0, 0, 0, 2] S256x7x7x2
  reduces_S256x7x7_S256x7 : S256x7x7.Reduces [2] S256x7
  shapeCasts_S256x7_S256x7x1 : S256x7.ShapeCasts S256x7x1
  reduces_S256x7x1_S256x1 : S256x7x1.Reduces [1] S256x1
  shapeCasts_S256x1_S256x1x1 : S256x1.ShapeCasts S256x1x1
  reduces_S256x1x1_S1x1 : S256x1x1.Reduces [0] S1x1
  shapeCasts_S1x1_S1x1x1 : S1x1.ShapeCasts S1x1x1
  iota_S8x128_d0_w32 : S8x128.Iotas .tc 32 [0]
  iota_S8x128_d1_w32 : S8x128.Iotas .tc 32 [1]
  shapeCasts_S8x128_S1x8x128 : S8x128.ShapeCasts S1x8x128
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S64x8x128_S64x1x1_0_0_0 : S64x8x128.Slices ![0, 0, 0] S64x1x1
  shapeCasts_S64x1x1_S64 : S64x1x1.ShapeCasts S64
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x7x7x30.size a ≤ S16384x7x7x30.size a
  hwx0_0 : ∀ i : grid0.Coords, EltTy.bits .f32 = 32 ∨ (Rect.block (s := S16384x7x7x30) S256x7x7x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x7x7x8.size a ≤ S16384x7x7x8.size a
  hwx0_1 : ∀ i : grid0.Coords, EltTy.bits .f32 = 32 ∨ (Rect.block (s := S16384x7x7x8) S256x7x7x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S64x8x128.size a
  hwx0_2 : ∀ i : grid0.Coords, EltTy.bits .f32 = 32 ∨ (Rect.block (s := S64x8x128) S1x8x128.size (cc0_transform_2 i) (hinb0_2 i)).WholeWords (EltTy.packing .f32)

variable [Facts₀]

abbrev win0_0 : Pipeline.Window sig grid0 :=
  Pipeline.Window.ofSpec (Memref.whole main_arg0) S256x7x7x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x7x7x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x7x7x30 : Shape := ⟨4, ![16384, 7, 7, 30]⟩
abbrev S16384x7x7x8 : Shape := ⟨4, ![16384, 7, 7, 8]⟩
abbrev S16384x7x7x1 : Shape := ⟨4, ![16384, 7, 7, 1]⟩
abbrev S16384x7x7 : Shape := ⟨3, ![16384, 7, 7]⟩
abbrev S_ : Shape := ⟨0, ![]⟩
abbrev S16384x7x7x4 : Shape := ⟨4, ![16384, 7, 7, 4]⟩
abbrev S1x1x1x20 : Shape := ⟨4, ![1, 1, 1, 20]⟩
abbrev S16384x7x7x20 : Shape := ⟨4, ![16384, 7, 7, 20]⟩
abbrev S16384x7x7x2 : Shape := ⟨4, ![16384, 7, 7, 2]⟩

abbrev nBuf : Space → Nat
  | .hbm => 281
  | .vmem => 0
  | .smem => 0
  | _ => 0

abbrev hbmTy0_0 (i : Nat) : BufTy := match i % 128 with
  | 0 => ⟨S16384x7x7x30, .f32⟩
  | 1 => ⟨S16384x7x7x8, .f32⟩
  | 2 => ⟨S16384x7x7x1, .f32⟩
  | 3 => ⟨S16384x7x7, .f32⟩
  | 4 => ⟨S_, .f32⟩
  | 5 => ⟨S16384x7x7, .f32⟩
  | 6 => ⟨S16384x7x7, .i1⟩
  | 7 => ⟨S16384x7x7x4, .f32⟩
  | 8 => ⟨S16384x7x7x4, .f32⟩
  | 9 => ⟨S16384x7x7x4, .f32⟩
  | 10 => ⟨S16384x7x7x1, .f32⟩
  | 11 => ⟨S16384x7x7, .f32⟩
  | 12 => ⟨S16384x7x7x1, .f32⟩
  | 13 => ⟨S16384x7x7, .f32⟩
  | 14 => ⟨S16384x7x7x1, .f32⟩
  | 15 => ⟨S16384x7x7, .f32⟩
  | 16 => ⟨S_, .f32⟩
  | 17 => ⟨S16384x7x7, .f32⟩
  | 18 => ⟨S16384x7x7, .f32⟩
  | 19 => ⟨S16384x7x7x1, .f32⟩
  | 20 => ⟨S16384x7x7, .f32⟩
  | 21 => ⟨S_, .f32⟩
  | 22 => ⟨S16384x7x7, .f32⟩
  | 23 => ⟨S16384x7x7, .f32⟩
  | 24 => ⟨S16384x7x7x1, .f32⟩
  | 25 => ⟨S16384x7x7, .f32⟩
  | 26 => ⟨S_, .f32⟩
  | 27 => ⟨S16384x7x7, .f32⟩
  | 28 => ⟨S16384x7x7, .f32⟩
  | 29 => ⟨S16384x7x7x1, .f32⟩
  | 30 => ⟨S16384x7x7, .f32⟩
  | 31 => ⟨S_, .f32⟩
  | 32 => ⟨S16384x7x7, .f32⟩
  | 33 => ⟨S16384x7x7, .f32⟩
  | 34 => ⟨S16384x7x7x1, .f32⟩
  | 35 => ⟨S16384x7x7, .f32⟩
  | 36 => ⟨S_, .f32⟩
  | 37 => ⟨S16384x7x7, .f32⟩
  | 38 => ⟨S16384x7x7, .f32⟩
  | 39 => ⟨S16384x7x7x1, .f32⟩
  | 40 => ⟨S16384x7x7, .f32⟩
  | 41 => ⟨S_, .f32⟩
  | 42 => ⟨S16384x7x7, .f32⟩
  | 43 => ⟨S16384x7x7, .f32⟩
  | 44 => ⟨S16384x7x7x1, .f32⟩
  | 45 => ⟨S16384x7x7, .f32⟩
  | 46 => ⟨S_, .f32⟩
  | 47 => ⟨S16384x7x7, .f32⟩
  | 48 => ⟨S16384x7x7, .f32⟩
  | 49 => ⟨S16384x7x7x1, .f32⟩
  | 50 => ⟨S16384x7x7, .f32⟩
  | 51 => ⟨S_, .f32⟩
  | 52 => ⟨S16384x7x7, .f32⟩
  | 53 => ⟨S16384x7x7, .f32⟩
  | 54 => ⟨S_, .f32⟩
  | 55 => ⟨S16384x7x7, .f32⟩
  | 56 => ⟨S16384x7x7, .f32⟩
  | 57 => ⟨S16384x7x7, .f32⟩
  | 58 => ⟨S_, .f32⟩
  | 59 => ⟨S16384x7x7, .f32⟩
  | 60 => ⟨S16384x7x7, .f32⟩
  | 61 => ⟨S16384x7x7, .f32⟩
  | 62 => ⟨S16384x7x7, .f32⟩
  | 63 => ⟨S_, .f32⟩
  | 64 => ⟨S16384x7x7, .f32⟩
  | 65 => ⟨S16384x7x7, .f32⟩
  | 66 => ⟨S16384x7x7, .f32⟩
  | 67 => ⟨S_, .f32⟩
  | 68 => ⟨S16384x7x7, .f32⟩
  | 69 => ⟨S16384x7x7, .f32⟩
  | 70 => ⟨S16384x7x7, .f32⟩
  | 71 => ⟨S16384x7x7, .f32⟩
  | 72 => ⟨S16384x7x7, .f32⟩
  | 73 => ⟨S_, .f32⟩
  | 74 => ⟨S16384x7x7, .f32⟩
  | 75 => ⟨S16384x7x7, .f32⟩
  | 76 => ⟨S_, .f32⟩
  | 77 => ⟨S16384x7x7, .f32⟩
  | 78 => ⟨S16384x7x7, .f32⟩
  | 79 => ⟨S16384x7x7, .f32⟩
  | 80 => ⟨S_, .f32⟩
  | 81 => ⟨S16384x7x7, .f32⟩
  | 82 => ⟨S16384x7x7, .f32⟩
  | 83 => ⟨S16384x7x7, .f32⟩
  | 84 => ⟨S16384x7x7, .f32⟩
  | 85 => ⟨S_, .f32⟩
  | 86 => ⟨S16384x7x7, .f32⟩
  | 87 => ⟨S16384x7x7, .f32⟩
  | 88 => ⟨S16384x7x7, .f32⟩
  | 89 => ⟨S_, .f32⟩
  | 90 => ⟨S16384x7x7, .f32⟩
  | 91 => ⟨S16384x7x7, .f32⟩
  | 92 => ⟨S16384x7x7, .f32⟩
  | 93 => ⟨S16384x7x7, .f32⟩
  | 94 => ⟨S16384x7x7, .f32⟩
  | 95 => ⟨S_, .f32⟩
  | 96 => ⟨S16384x7x7, .f32⟩
  | 97 => ⟨S16384x7x7, .f32⟩
  | 98 => ⟨S16384x7x7, .f32⟩
  | 99 => ⟨S16384x7x7, .f32⟩
  | 100 => ⟨S16384x7x7, .f32⟩
  | 101 => ⟨S16384x7x7, .f32⟩
  | 102 => ⟨S16384x7x7, .f32⟩
  | 103 => ⟨S_, .f32⟩
  | 104 => ⟨S16384x7x7, .f32⟩
  | 105 => ⟨S16384x7x7, .f32⟩
  | 106 => ⟨S16384x7x7, .f32⟩
  | 107 => ⟨S16384x7x7x1, .f32⟩
  | 108 => ⟨S16384x7x7, .f32⟩
  | 109 => ⟨S_, .f32⟩
  | 110 => ⟨S16384x7x7, .f32⟩
  | 111 => ⟨S16384x7x7, .f32⟩
  | 112 => ⟨S16384x7x7x1, .f32⟩
  | 113 => ⟨S16384x7x7, .f32⟩
  | 114 => ⟨S_, .f32⟩
  | 115 => ⟨S16384x7x7, .f32⟩
  | 116 => ⟨S16384x7x7, .f32⟩
  | 117 => ⟨S16384x7x7x1, .f32⟩
  | 118 => ⟨S16384x7x7, .f32⟩
  | 119 => ⟨S_, .f32⟩
  | 120 => ⟨S16384x7x7, .f32⟩
  | 121 => ⟨S16384x7x7, .f32⟩
  | 122 => ⟨S16384x7x7x1, .f32⟩
  | 123 => ⟨S16384x7x7, .f32⟩
  | 124 => ⟨S_, .f32⟩
  | 125 => ⟨S16384x7x7, .f32⟩
  | 126 => ⟨S16384x7x7, .f32⟩
  | 127 => ⟨S16384x7x7x1, .f32⟩
  | _ => ⟨S16384x7x7x30, .f32⟩

abbrev hbmTy0_1 (i : Nat) : BufTy := match i % 128 with
  | 0 => ⟨S16384x7x7, .f32⟩
  | 1 => ⟨S_, .f32⟩
  | 2 => ⟨S16384x7x7, .f32⟩
  | 3 => ⟨S16384x7x7, .f32⟩
  | 4 => ⟨S16384x7x7x1, .f32⟩
  | 5 => ⟨S16384x7x7, .f32⟩
  | 6 => ⟨S_, .f32⟩
  | 7 => ⟨S16384x7x7, .f32⟩
  | 8 => ⟨S16384x7x7, .f32⟩
  | 9 => ⟨S16384x7x7x1, .f32⟩
  | 10 => ⟨S16384x7x7, .f32⟩
  | 11 => ⟨S_, .f32⟩
  | 12 => ⟨S16384x7x7, .f32⟩
  | 13 => ⟨S16384x7x7, .f32⟩
  | 14 => ⟨S16384x7x7x1, .f32⟩
  | 15 => ⟨S16384x7x7, .f32⟩
  | 16 => ⟨S_, .f32⟩
  | 17 => ⟨S16384x7x7, .f32⟩
  | 18 => ⟨S16384x7x7, .f32⟩
  | 19 => ⟨S_, .f32⟩
  | 20 => ⟨S16384x7x7, .f32⟩
  | 21 => ⟨S16384x7x7, .f32⟩
  | 22 => ⟨S16384x7x7, .f32⟩
  | 23 => ⟨S_, .f32⟩
  | 24 => ⟨S16384x7x7, .f32⟩
  | 25 => ⟨S16384x7x7, .f32⟩
  | 26 => ⟨S16384x7x7, .f32⟩
  | 27 => ⟨S16384x7x7, .f32⟩
  | 28 => ⟨S_, .f32⟩
  | 29 => ⟨S16384x7x7, .f32⟩
  | 30 => ⟨S16384x7x7, .f32⟩
  | 31 => ⟨S16384x7x7, .f32⟩
  | 32 => ⟨S_, .f32⟩
  | 33 => ⟨S16384x7x7, .f32⟩
  | 34 => ⟨S16384x7x7, .f32⟩
  | 35 => ⟨S16384x7x7, .f32⟩
  | 36 => ⟨S16384x7x7, .f32⟩
  | 37 => ⟨S16384x7x7, .f32⟩
  | 38 => ⟨S_, .f32⟩
  | 39 => ⟨S16384x7x7, .f32⟩
  | 40 => ⟨S16384x7x7, .f32⟩
  | 41 => ⟨S_, .f32⟩
  | 42 => ⟨S16384x7x7, .f32⟩
  | 43 => ⟨S16384x7x7, .f32⟩
  | 44 => ⟨S16384x7x7, .f32⟩
  | 45 => ⟨S_, .f32⟩
  | 46 => ⟨S16384x7x7, .f32⟩
  | 47 => ⟨S16384x7x7, .f32⟩
  | 48 => ⟨S16384x7x7, .f32⟩
  | 49 => ⟨S16384x7x7, .f32⟩
  | 50 => ⟨S_, .f32⟩
  | 51 => ⟨S16384x7x7, .f32⟩
  | 52 => ⟨S16384x7x7, .f32⟩
  | 53 => ⟨S16384x7x7, .f32⟩
  | 54 => ⟨S_, .f32⟩
  | 55 => ⟨S16384x7x7, .f32⟩
  | 56 => ⟨S16384x7x7, .f32⟩
  | 57 => ⟨S16384x7x7, .f32⟩
  | 58 => ⟨S16384x7x7, .f32⟩
  | 59 => ⟨S16384x7x7, .f32⟩
  | 60 => ⟨S_, .f32⟩
  | 61 => ⟨S16384x7x7, .f32⟩
  | 62 => ⟨S16384x7x7, .f32⟩
  | 63 => ⟨S16384x7x7, .f32⟩
  | 64 => ⟨S16384x7x7, .f32⟩
  | 65 => ⟨S16384x7x7, .f32⟩
  | 66 => ⟨S16384x7x7, .f32⟩
  | 67 => ⟨S16384x7x7, .f32⟩
  | 68 => ⟨S_, .f32⟩
  | 69 => ⟨S16384x7x7, .f32⟩
  | 70 => ⟨S16384x7x7, .f32⟩
  | 71 => ⟨S16384x7x7, .f32⟩
  | 72 => ⟨S16384x7x7x1, .f32⟩
  | 73 => ⟨S16384x7x7, .f32⟩
  | 74 => ⟨S16384x7x7, .i32⟩
  | 75 => ⟨S_, .i32⟩
  | 76 => ⟨S16384x7x7, .i32⟩
  | 77 => ⟨S16384x7x7, .i32⟩
  | 78 => ⟨S16384x7x7x1, .i32⟩
  | 79 => ⟨S1x1x1x20, .i32⟩
  | 80 => ⟨S16384x7x7x20, .i32⟩
  | 81 => ⟨S16384x7x7x20, .i32⟩
  | 82 => ⟨S16384x7x7x20, .i1⟩
  | 83 => ⟨S16384x7x7x20, .f32⟩
  | 84 => ⟨S16384x7x7x20, .f32⟩
  | 85 => ⟨S16384x7x7x20, .f32⟩
  | 86 => ⟨S16384x7x7x20, .f32⟩
  | 87 => ⟨S_, .f32⟩
  | 88 => ⟨S16384x7x7, .f32⟩
  | 89 => ⟨S16384x7x7, .f32⟩
  | 90 => ⟨S16384x7x7, .f32⟩
  | 91 => ⟨S16384x7x7, .f32⟩
  | 92 => ⟨S16384x7x7, .f32⟩
  | 93 => ⟨S16384x7x7, .f32⟩
  | 94 => ⟨S16384x7x7x2, .f32⟩
  | 95 => ⟨S16384x7x7x2, .f32⟩
  | 96 => ⟨S16384x7x7x2, .f32⟩
  | 97 => ⟨S16384x7x7x2, .f32⟩
  | 98 => ⟨S_, .f32⟩
  | 99 => ⟨S16384x7x7, .f32⟩
  | 100 => ⟨S16384x7x7x2, .f32⟩
  | 101 => ⟨S_, .f32⟩
  | 102 => ⟨S16384x7x7x2, .f32⟩
  | 103 => ⟨S16384x7x7x2, .f32⟩
  | 104 => ⟨S16384x7x7x2, .f32⟩
  | 105 => ⟨S16384x7x7x2, .f32⟩
  | 106 => ⟨S_, .f32⟩
  | 107 => ⟨S16384x7x7x2, .f32⟩
  | 108 => ⟨S16384x7x7x2, .f32⟩
  | 109 => ⟨S16384x7x7x2, .f32⟩
  | 110 => ⟨S16384x7x7x2, .f32⟩
  | 111 => ⟨S16384x7x7x2, .f32⟩
  | 112 => ⟨S_, .f32⟩
  | 113 => ⟨S16384x7x7, .f32⟩
  | 114 => ⟨S16384x7x7, .f32⟩
  | 115 => ⟨S16384x7x7x2, .f32⟩
  | 116 => ⟨S16384x7x7x2, .f32⟩
  | 117 => ⟨S16384x7x7x2, .f32⟩
  | 118 => ⟨S16384x7x7x2, .f32⟩
  | 119 => ⟨S_, .f32⟩
  | 120 => ⟨S16384x7x7, .f32⟩
  | 121 => ⟨S16384x7x7x2, .f32⟩
  | 122 => ⟨S_, .f32⟩
  | 123 => ⟨S16384x7x7x2, .f32⟩
  | 124 => ⟨S16384x7x7x2, .f32⟩
  | 125 => ⟨S16384x7x7x2, .f32⟩
  | 126 => ⟨S16384x7x7x2, .f32⟩
  | 127 => ⟨S_, .f32⟩
  | _ => ⟨S16384x7x7x30, .f32⟩

abbrev hbmTy0_2 (i : Nat) : BufTy := match i % 128 with
  | 0 => ⟨S16384x7x7x2, .f32⟩
  | 1 => ⟨S16384x7x7x2, .f32⟩
  | 2 => ⟨S16384x7x7x2, .f32⟩
  | 3 => ⟨S16384x7x7x2, .f32⟩
  | 4 => ⟨S16384x7x7x2, .f32⟩
  | 5 => ⟨S_, .f32⟩
  | 6 => ⟨S16384x7x7, .f32⟩
  | 7 => ⟨S16384x7x7, .f32⟩
  | 8 => ⟨S16384x7x7, .f32⟩
  | 9 => ⟨S_, .f32⟩
  | 10 => ⟨S16384x7x7, .f32⟩
  | 11 => ⟨S16384x7x7, .f32⟩
  | 12 => ⟨S16384x7x7, .f32⟩
  | 13 => ⟨S16384x7x7, .f32⟩
  | 14 => ⟨S16384x7x7, .f32⟩
  | 15 => ⟨S16384x7x7, .f32⟩
  | 16 => ⟨S16384x7x7, .f32⟩
  | 17 => ⟨S_, .f32⟩
  | 18 => ⟨S16384x7x7, .f32⟩
  | 19 => ⟨S16384x7x7, .f32⟩
  | 20 => ⟨S16384x7x7, .f32⟩
  | 21 => ⟨S_, .f32⟩
  | 22 => ⟨S_, .f32⟩
  | 23 => ⟨S_, .f32⟩
  | 24 => ⟨S_, .f32⟩
  | _ => ⟨S16384x7x7x30, .f32⟩

abbrev hbmTy (i : Nat) : BufTy := match i / 128 with
  | 0 => hbmTy0_0 i
  | 1 => hbmTy0_1 i
  | 2 => hbmTy0_2 i
  | _ => ⟨S16384x7x7x30, .f32⟩

abbrev bufTy : (tb : Table) → Fin (tcTables nBuf tb) → BufTy
  | .hbm, ⟨i, _⟩ => hbmTy i
  | _, _ => ⟨S16384x7x7x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_6 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_7 : Ref sig .tc := ⟨.hbm, 51, rfl⟩
abbrev main_v41 : Ref sig .tc := ⟨.hbm, 52, rfl⟩
abbrev main_v42 : Ref sig .tc := ⟨.hbm, 53, rfl⟩
abbrev main_cst_8 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_9 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_10 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_11 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_12 : Ref sig .tc := ⟨.hbm, 73, rfl⟩
abbrev main_v58 : Ref sig .tc := ⟨.hbm, 74, rfl⟩
abbrev main_v59 : Ref sig .tc := ⟨.hbm, 75, rfl⟩
abbrev main_cst_13 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_14 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_15 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_16 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_17 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_18 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_19 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_20 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_21 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_22 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_23 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_24 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_25 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_26 : Ref sig .tc := ⟨.hbm, 144, rfl⟩
abbrev main_v115 : Ref sig .tc := ⟨.hbm, 145, rfl⟩
abbrev main_v116 : Ref sig .tc := ⟨.hbm, 146, rfl⟩
abbrev main_cst_27 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst_28 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_29 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_30 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_31 : Ref sig .tc := ⟨.hbm, 166, rfl⟩
abbrev main_v132 : Ref sig .tc := ⟨.hbm, 167, rfl⟩
abbrev main_v133 : Ref sig .tc := ⟨.hbm, 168, rfl⟩
abbrev main_cst_32 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_33 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_34 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_cst_35 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_cst_36 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_cst_37 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_c : Ref sig .tc := ⟨.hbm, 203, rfl⟩
abbrev main_v162 : Ref sig .tc := ⟨.hbm, 204, rfl⟩
abbrev main_v163 : Ref sig .tc := ⟨.hbm, 205, rfl⟩
abbrev main_call0_v0 : Ref sig .tc := ⟨.hbm, 206, rfl⟩
abbrev main_call0_v1 : Ref sig .tc := ⟨.hbm, 207, rfl⟩
abbrev main_call0_v2 : Ref sig .tc := ⟨.hbm, 208, rfl⟩
abbrev main_call0_v3 : Ref sig .tc := ⟨.hbm, 209, rfl⟩
abbrev main_call0_v4 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_cst_38 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_cst_39 : Ref sig .tc := ⟨.hbm, 226, rfl⟩
abbrev main_v178 : Ref sig .tc := ⟨.hbm, 227, rfl⟩
abbrev main_v179 : Ref sig .tc := ⟨.hbm, 228, rfl⟩
abbrev main_cst_40 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_cst_41 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_cst_42 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_cst_43 : Ref sig .tc := ⟨.hbm, 247, rfl⟩
abbrev main_v195 : Ref sig .tc := ⟨.hbm, 248, rfl⟩
abbrev main_v196 : Ref sig .tc := ⟨.hbm, 249, rfl⟩
abbrev main_cst_44 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_cst_45 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_cst_46 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_cst_47 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_cst_48 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_cst_49 : Ref sig .tc := ⟨.hbm, 277, rfl⟩
abbrev main_v219 : Ref sig .tc := ⟨.hbm, 278, rfl⟩
abbrev main_cst_50 : Ref sig .tc := ⟨.hbm, 279, rfl⟩
abbrev main_v220 : Ref sig .tc := ⟨.hbm, 280, rfl⟩

abbrev nD : Nat := 1
abbrev τ : Topo := Topo.v7x

variable {F : FTy → Type} [FloatOps F]

class Facts₀ : Prop where
  slices_S16384x7x7x8_S16384x7x7x1_0_0_0_0 : S16384x7x7x8.Slices ![0, 0, 0, 0] S16384x7x7x1
  shapeCasts_S16384x7x7x1_S16384x7x7 : S16384x7x7x1.ShapeCasts S16384x7x7
  bcast_S_S16384x7x7 : S_.BroadcastsInDim S16384x7x7 (![] : Fin 0 → Fin S16384x7x7.rank)
  slices_S16384x7x7x8_S16384x7x7x4_0_0_0_1 : S16384x7x7x8.Slices ![0, 0, 0, 1] S16384x7x7x4
  slices_S16384x7x7x30_S16384x7x7x4_0_0_0_0 : S16384x7x7x30.Slices ![0, 0, 0, 0] S16384x7x7x4
  slices_S16384x7x7x30_S16384x7x7x4_0_0_0_5 : S16384x7x7x30.Slices ![0, 0, 0, 5] S16384x7x7x4
  slices_S16384x7x7x30_S16384x7x7x1_0_0_0_4 : S16384x7x7x30.Slices ![0, 0, 0, 4] S16384x7x7x1
  slices_S16384x7x7x30_S16384x7x7x1_0_0_0_9 : S16384x7x7x30.Slices ![0, 0, 0, 9] S16384x7x7x1
  slices_S16384x7x7x4_S16384x7x7x1_0_0_0_0 : S16384x7x7x4.Slices ![0, 0, 0, 0] S16384x7x7x1
  slices_S16384x7x7x4_S16384x7x7x1_0_0_0_1 : S16384x7x7x4.Slices ![0, 0, 0, 1] S16384x7x7x1
  slices_S16384x7x7x4_S16384x7x7x1_0_0_0_2 : S16384x7x7x4.Slices ![0, 0, 0, 2] S16384x7x7x1
  slices_S16384x7x7x4_S16384x7x7x1_0_0_0_3 : S16384x7x7x4.Slices ![0, 0, 0, 3] S16384x7x7x1
  bcast_S16384x7x7_S16384x7x7x1_0_1_2 : S16384x7x7.BroadcastsInDim S16384x7x7x1 (![0, 1, 2] : Fin 3 → Fin S16384x7x7x1.rank)
  bcast_S16384x7x7x1_S16384x7x7x20_0_1_2_3 : S16384x7x7x1.BroadcastsInDim S16384x7x7x20 (![0, 1, 2, 3] : Fin 4 → Fin S16384x7x7x20.rank)
  bcast_S1x1x1x20_S16384x7x7x20_0_1_2_3 : S1x1x1x20.BroadcastsInDim S16384x7x7x20 (![0, 1, 2, 3] : Fin 4 → Fin S16384x7x7x20.rank)
  slices_S16384x7x7x30_S16384x7x7x20_0_0_0_10 : S16384x7x7x30.Slices ![0, 0, 0, 10] S16384x7x7x20
  reducesTo_S16384x7x7x20_S16384x7x7_d3 : S16384x7x7x20.ReducesTo [3] S16384x7x7
  h_S_ : 0 < S_.numel
  slices_S16384x7x7x4_S16384x7x7x2_0_0_0_0 : S16384x7x7x4.Slices ![0, 0, 0, 0] S16384x7x7x2
  reducesTo_S16384x7x7x2_S16384x7x7_d3 : S16384x7x7x2.ReducesTo [3] S16384x7x7
  slices_S16384x7x7x4_S16384x7x7x2_0_0_0_2 : S16384x7x7x4.Slices ![0, 0, 0, 2] S16384x7x7x2
  bcast_S_S16384x7x7x2 : S_.BroadcastsInDim S16384x7x7x2 (![] : Fin 0 → Fin S16384x7x7x2.rank)
  reducesTo_S16384x7x7_S_d0_1_2 : S16384x7x7.ReducesTo [0, 1, 2] S_

variable [Facts₀]

class Facts : Prop extends Facts₀ where

variable [Facts]
-- ==== Proof.LibHloEnv.lean ====
/-
  Running a straight line of host operations with every intermediate value kept once. The library's fold
  `StableHlo.after ops V` gives what each buffer holds after the operations; reading it at the last result by
  rewriting re-derives every shared intermediate value at each of its uses. Here the fold is walked once, front to
  back, carrying an environment: a list of (buffer, value) pairs the current contents agree with, and the list of the
  buffers named so far. An operation whose operands are in the environment and whose result buffer is new (the
  program is in single-assignment form) extends the environment by its result; nothing else changes. At the end the
  environment holds the result buffers' values as terms of the launch contents, and the argument buffers unchanged.
  The walk is in continuation form, so that a proof is one `refine` per operation.
-/
import Idealize.ShloMosaic.Lib.StableHlo.Run

noncomputable section

namespace HloEnv

open Idealize.ShloMosaic Idealize.ShloMosaic.StableHlo Idealize.ShloMosaic.TcCoe

variable {τ : Topo} {sig : RefSig} {Val : EltTy → Type}

/-- A buffer with a value of its type. -/
abbrev Entry (sig : RefSig) (Val : EltTy → Type) : Type := (r : Ref sig .tc) × r.ty.Contents Val

/-- The contents `W` hold, at every buffer of the environment, the value listed for it; `keys` are the environment's
    buffers in order (kept apart so that "this buffer is new" is a closed, decidable fact about references). -/
structure Inv (W : Valuation τ sig Val) (keys : List (Ref sig .tc)) (env : List (Entry sig Val)) : Prop where
  agrees : ∀ p ∈ env, W (Proc.devRef .tc p.1) = p.2
  keys_eq : env.map Sigma.fst = keys

theorem Inv.fresh {W : Valuation τ sig Val} {keys : List (Ref sig .tc)} {env : List (Entry sig Val)} (h : Inv W keys env)
    {y : Ref sig .tc} (hy : y ∉ keys) : ∀ p ∈ env, p.1 ≠ y := fun p hp e =>
  hy (h.keys_eq ▸ e ▸ List.mem_map_of_mem (f := Sigma.fst) hp)

/-- The start: the launch contents agree with themselves at the listed buffers. -/
theorem Inv.start (V : Valuation τ sig Val) (rs : List (Ref sig .tc)) :
    Inv V rs (rs.map fun r => ⟨r, V (Proc.devRef .tc r)⟩) where
  agrees p hp := by
    obtain ⟨r, -, rfl⟩ := List.mem_map.mp hp
    rfl
  keys_eq := by
    rw [List.map_map]
    exact List.map_id' _ |>.symm ▸ rfl

/-- The start, for two argument buffers. -/
theorem Inv.start2 (V : Valuation τ sig Val) (a b : Ref sig .tc) :
    Inv V [a, b] [⟨a, V (Proc.devRef .tc a)⟩, ⟨b, V (Proc.devRef .tc b)⟩] where
  agrees p hp := by
    rcases List.mem_cons.mp hp with rfl | hp
    · rfl
    · rcases List.mem_cons.mp hp with rfl | hp
      · rfl
      · exact absurd hp (List.not_mem_nil)
  keys_eq := rfl

variable {W : Valuation τ sig Val} {keys : List (Ref sig .tc)} {env : List (Entry sig Val)}
  {Q : Valuation τ sig Val → Prop} {rest : List (HloOp τ sig Val)}

/-- The environment after an operation that wrote only the new buffer `y`, with value `v` there. -/
theorem Inv.extend (h : Inv W keys env) (op : HloOp τ sig Val) (y : Ref sig .tc) (v : y.ty.Contents Val)
    (hy : y ∉ keys) (hres : op.result W (Proc.devRef .tc y) = v)
    (hne : ∀ r : Ref sig .tc, r ≠ y → op.result W (Proc.devRef .tc r) = W (Proc.devRef .tc r)) :
    Inv (op.result W) (y :: keys) (⟨y, v⟩ :: env) where
  agrees p hp := by
    rcases List.mem_cons.mp hp with rfl | hp
    · exact hres
    · rw [hne p.1 (h.fresh hy p hp)]; exact h.agrees p hp
  keys_eq := by rw [List.map_cons, h.keys_eq]

theorem step_nullary (y : Ref sig .tc) (v : y.ty.Contents Val) (hy') (hy : y ∉ keys)
    (k : ∀ W', Inv W' (y :: keys) (⟨y, v⟩ :: env) → Q (after rest W')) :
    Inv W keys env → Q (after (nullary (τ := τ) y v hy' :: rest) W) := fun h =>
  k _ (h.extend _ y v hy (nullary_result y v hy' W) fun _ hr => nullary_result_ne y v hy' W hr)

theorem step_unary (x y : Ref sig .tc) (f : x.ty.Contents Val → y.ty.Contents Val) (hx' hy')
    (vx : x.ty.Contents Val) (hmx : (⟨x, vx⟩ : Entry sig Val) ∈ env) (hy : y ∉ keys)
    (k : ∀ W', Inv W' (y :: keys) (⟨y, f vx⟩ :: env) → Q (after rest W')) :
    Inv W keys env → Q (after (unary (τ := τ) x y f hx' hy' :: rest) W) := fun h =>
  k _ (h.extend _ y (f vx) hy ((unary_result x y f hx' hy' W).trans (congrArg f (h.agrees _ hmx)))
    fun _ hr => unary_result_ne x y f hx' hy' W hr)

theorem step_binary (a b y : Ref sig .tc) (f : a.ty.Contents Val → b.ty.Contents Val → y.ty.Contents Val) (ha' hb' hy')
    (va : a.ty.Contents Val) (vb : b.ty.Contents Val) (hma : (⟨a, va⟩ : Entry sig Val) ∈ env)
    (hmb : (⟨b, vb⟩ : Entry sig Val) ∈ env) (hy : y ∉ keys)
    (k : ∀ W', Inv W' (y :: keys) (⟨y, f va vb⟩ :: env) → Q (after rest W')) :
    Inv W keys env → Q (after (binary (τ := τ) a b y f ha' hb' hy' :: rest) W) := fun h =>
  k _ (h.extend _ y (f va vb) hy
    ((binary_result a b y f ha' hb' hy' W).trans (congrArg₂ f (h.agrees _ hma) (h.agrees _ hmb)))
    fun _ hr => binary_result_ne a b y f ha' hb' hy' W hr)

theorem step_ternary (c a b y : Ref sig .tc)
    (f : c.ty.Contents Val → a.ty.Contents Val → b.ty.Contents Val → y.ty.Contents Val) (hc' ha' hb' hy')
    (vc : c.ty.Contents Val) (va : a.ty.Contents Val) (vb : b.ty.Contents Val) (hmc : (⟨c, vc⟩ : Entry sig Val) ∈ env)
    (hma : (⟨a, va⟩ : Entry sig Val) ∈ env) (hmb : (⟨b, vb⟩ : Entry sig Val) ∈ env) (hy : y ∉ keys)
    (k : ∀ W', Inv W' (y :: keys) (⟨y, f vc va vb⟩ :: env) → Q (after rest W')) :
    Inv W keys env → Q (after (ternary (τ := τ) c a b y f hc' ha' hb' hy' :: rest) W) := fun h =>
  k _ (h.extend _ y (f vc va vb) hy
    ((ternary_result c a b y f hc' ha' hb' hy' W).trans (by rw [h.agrees _ hmc, h.agrees _ hma, h.agrees _ hmb]))
    fun _ hr => ternary_result_ne a b c y f hc' ha' hb' hy' W hr)

theorem step_reshape (x y : Ref sig .tc) (he : x.ty.elt = y.ty.elt) (hn : x.ty.shape.ShapeCasts y.ty.shape) (hx' hy')
    (vx : x.ty.Contents Val) (hmx : (⟨x, vx⟩ : Entry sig Val) ∈ env) (hy : y ∉ keys)
    (k : ∀ W', Inv W' (y :: keys) (⟨y, fun i => he ▸ shapeCast y.ty.shape vx hn i⟩ :: env) → Q (after rest W')) :
    Inv W keys env → Q (after (reshape (τ := τ) (Val := Val) x y he hn hx' hy' :: rest) W) := fun h =>
  k _ (h.extend _ y _ hy ((reshape_result x y he hn hx' hy' W).trans (by rw [h.agrees _ hmx]))
    fun _ hr => reshape_result_ne x y he hn hx' hy' W hr)

/-- The fold over a concatenation is the fold over the second list from the fold over the first. -/
theorem after_append : ∀ (l₁ l₂ : List (HloOp τ sig Val)) (V : Valuation τ sig Val), after (l₁ ++ l₂) V = after l₂ (after l₁ V)
  | [], _, _ => rfl
  | op :: l₁, l₂, V => after_append l₁ l₂ (op.result V)

/-- "After the operations `l` more, `Q`": what is still owed when a line is walked one stretch at a time. -/
def Then (l : List (HloOp τ sig Val)) (Q : Valuation τ sig Val → Prop) (W : Valuation τ sig Val) : Prop := Q (after l W)

/-- A line that is two stretches: walk the first, owing the second. -/
theorem step_append (l₁ l₂ : List (HloOp τ sig Val)) (k : Inv W keys env → Then l₂ Q (after l₁ W)) :
    Inv W keys env → Q (after (l₁ ++ l₂) W) := fun h => by
  rw [after_append]; exact k h

/-- The end of a stretch: go on with what is owed. -/
theorem step_then (l₂ : List (HloOp τ sig Val)) (k : Inv W keys env → Q (after l₂ W)) :
    Inv W keys env → Then l₂ Q (after ([] : List (HloOp τ sig Val)) W) := k

/-- The end of the line. -/
theorem step_nil (k : Inv W keys env → Q W) : Inv W keys env → Q (after ([] : List (HloOp τ sig Val)) W) := k

/-- Finds a buffer's entry in the environment, newest first. -/
macro "env_mem" : tactic => `(tactic| repeat (first | exact List.Mem.head _ | apply List.Mem.tail))

open Lean Elab Tactic Meta in
/-- One operation of the line: the goal is `Inv W keys env → Q (after (op :: rest) W)`; the builder that `op` is
    decides which step applies. -/
elab "hlo_step" : tactic => withMainContext do
  let g ← getMainGoal
  let t ← instantiateMVars (← g.getType)
  let some (_, body) := t.arrow? | throwError "hlo_step: the goal is not an implication"
  let aft := body.appArg!
  unless aft.isAppOf ``Idealize.ShloMosaic.StableHlo.after do throwError "hlo_step: no fold in the goal"
  let L ← whnf aft.appFn!.appArg!
  unless L.isAppOfArity ``List.cons 3 do throwError "hlo_step: the line has ended"
  let op ← whnfR (L.getArg! 1)
  match op.getAppFn.constName? with
  | some n =>
    if n == ``Idealize.ShloMosaic.StableHlo.binary then
      evalTactic (← `(tactic| (refine step_binary _ _ _ _ _ _ _ ?va ?vb ?hma ?hmb (by decide +kernel) (fun W' => ?k)
                               case hma => env_mem
                               case hmb => env_mem)))
    else if n == ``Idealize.ShloMosaic.StableHlo.unary then
      evalTactic (← `(tactic| (refine step_unary _ _ _ _ _ ?vx ?hmx (by decide +kernel) (fun W' => ?k)
                               case hmx => env_mem)))
    else if n == ``Idealize.ShloMosaic.StableHlo.nullary then
      evalTactic (← `(tactic| refine step_nullary _ _ _ (by decide +kernel) (fun W' => ?k)))
    else if n == ``Idealize.ShloMosaic.StableHlo.reshape then
      evalTactic (← `(tactic| (refine step_reshape _ _ _ _ _ _ ?vx ?hmx (by decide +kernel) (fun W' => ?k)
                               case hmx => env_mem)))
    else if n == ``Idealize.ShloMosaic.StableHlo.ternary then
      evalTactic (← `(tactic| (refine step_ternary _ _ _ _ _ _ _ _ _ ?vc ?va ?vb ?hmc ?hma ?hmb (by decide +kernel) (fun W' => ?k)
                               case hmc => env_mem
                               case hma => env_mem
                               case hmb => env_mem)))
    else throwError "hlo_step: no step for the builder {n}"
  | none => throwError "hlo_step: the operation is no builder's: {op}"

end HloEnv

end
-- ==== Proof.LibBatchTile.lean ====
/-
  Batch tiles. A kernel that cuts the leading (batch) axis of its operands into equal tiles and applies, inside a
  tile, the same cell-by-cell operations a whole-array program applies to the whole arrays, computes on each tile the
  tile of the whole-array result. `IsTile o v w` says: reading the small array `v` at an index is reading the large
  array `w` at the same index moved `o` places along axis 0. The lemmas below say that every operation acting cell
  by cell keeps this relation: pointwise arithmetic, comparisons, conversions and selects, splats of a constant,
  unit-stride slices that leave axis 0 whole, the cast that drops (or adds) a trailing unit axis, a trailing-axis
  broadcast, the coordinate along a trailing axis, and (on the extended reals) a sum over the trailing axis.
  The kernel's spelling of an operation stands on the left, the host program's spelling on the right.
-/
import Idealize.ShloMosaic.PureOps.Ideal
import Idealize.ShloMosaic.PureOps.Ideal.Laws
import Idealize.ShloMosaic.Lib.Pipeline.Value

noncomputable section

namespace BatchTile

open Idealize.ShloMosaic

variable {r : ℕ} {d D d' D' : Fin r → ℕ} {α β γ δ : Type} {o : ℕ}

/-- The large index `I` is the small index `i` moved `o` places along axis 0. -/
def Shift (o : ℕ) (i : (⟨r, d⟩ : Shape).Idx) (I : (⟨r, D⟩ : Shape).Idx) : Prop :=
  ∀ a : Fin r, (I a).val = (i a).val + (if a.val = 0 then o else 0)

/-- `v` is the tile of `w` that starts `o` places along axis 0. -/
def IsTile (o : ℕ) (v : (⟨r, d⟩ : Shape).Idx → α) (w : (⟨r, D⟩ : Shape).Idx → α) : Prop :=
  ∀ i I, Shift o i I → v i = w I

section Pointwise
variable {v : (⟨r, d⟩ : Shape).Idx → α} {w : (⟨r, D⟩ : Shape).Idx → α}
  {v' : (⟨r, d⟩ : Shape).Idx → β} {w' : (⟨r, D⟩ : Shape).Idx → β}
  {v'' : (⟨r, d⟩ : Shape).Idx → γ} {w'' : (⟨r, D⟩ : Shape).Idx → γ}

theorem IsTile.map (f : α → δ) (h : IsTile o v w) : IsTile o (fun i => f (v i)) (fun I => f (w I)) :=
  fun i I hI => congrArg f (h i I hI)

theorem IsTile.map₂ (f : α → β → δ) (h : IsTile o v w) (h' : IsTile o v' w') :
    IsTile o (fun i => f (v i) (v' i)) (fun I => f (w I) (w' I)) :=
  fun i I hI => congrArg₂ f (h i I hI) (h' i I hI)

theorem IsTile.map₃ (f : α → β → γ → δ) (h : IsTile o v w) (h' : IsTile o v' w') (h'' : IsTile o v'' w'') :
    IsTile o (fun i => f (v i) (v' i) (v'' i)) (fun I => f (w I) (w' I) (w'' I)) :=
  fun i I hI => by
    show f (v i) (v' i) (v'' i) = f (w I) (w' I) (w'' I)
    rw [h i I hI, h' i I hI, h'' i I hI]

/-- Two constant arrays of one value. -/
theorem IsTile.const (c : α) : IsTile o (fun _ : (⟨r, d⟩ : Shape).Idx => c) (fun _ : (⟨r, D⟩ : Shape).Idx => c) :=
  fun _ _ _ => rfl

end Pointwise

section Float
variable {F : FTy → Type} [FloatOps F] {φ : FTy}
variable {v v' : FVec F ⟨r, d⟩ φ} {w w' : FVec F ⟨r, D⟩ φ}

theorem IsTile.addf (h : IsTile o v w) (h' : IsTile o v' w') : IsTile o (addf v v') (addf w w') := h.map₂ FloatOps.addf h'
theorem IsTile.subf (h : IsTile o v w) (h' : IsTile o v' w') : IsTile o (subf v v') (subf w w') := h.map₂ FloatOps.subf h'
theorem IsTile.mulf (h : IsTile o v w) (h' : IsTile o v' w') : IsTile o (mulf v v') (mulf w w') := h.map₂ FloatOps.mulf h'
theorem IsTile.maximumf (h : IsTile o v w) (h' : IsTile o v' w') : IsTile o (maximumf v v') (maximumf w w') :=
  h.map₂ FloatOps.maximumf h'
theorem IsTile.minimumf (h : IsTile o v w) (h' : IsTile o v' w') : IsTile o (minimumf v v') (minimumf w w') :=
  h.map₂ FloatOps.minimumf h'
theorem IsTile.fptosi (n : ℕ) (h : IsTile o v w) : IsTile o (fptosi n v) (fptosi n w) := h.map (FloatOps.fptosi n)

/-- A splat of a float literal: the kernel broadcasts the scalar, the host broadcasts a rank-0 constant. -/
theorem IsTile.splat {s0 : Shape} (b : BitVec φ.bits) (dims : Fin s0.rank → Fin r)
    (hb : s0.BroadcastsInDim ⟨r, D⟩ dims) :
    IsTile o (broadcast (⟨r, d⟩ : Shape) (Scalar.ofBits (F := F) φ b))
      (broadcastInDim (⟨r, D⟩ : Shape) dims hb (constant (F := F) s0 φ b)) :=
  fun _ _ _ => rfl

end Float

section Int
variable {n : ℕ} {v v' : IVec ⟨r, d⟩ n} {w w' : IVec ⟨r, D⟩ n}

theorem IsTile.subi (h : IsTile o v w) (h' : IsTile o v' w') : IsTile o (subi v v') (subi w w') := h.map₂ IntOp.subi h'
theorem IsTile.cmpi (p : CmpIPredicate) (h : IsTile o v w) (h' : IsTile o v' w') : IsTile o (cmpi p v v') (cmpi p w w') :=
  h.map₂ (IntOp.cmpi p) h'

/-- A splat of an integer literal. -/
theorem IsTile.splatI {s0 : Shape} (b : BitVec n) (dims : Fin s0.rank → Fin r) (hb : s0.BroadcastsInDim ⟨r, D⟩ dims) :
    IsTile o (broadcast (⟨r, d⟩ : Shape) b) (broadcastInDim (⟨r, D⟩ : Shape) dims hb (constantI s0 n b)) :=
  fun _ _ _ => rfl

end Int

/-- `select` acts cell by cell. -/
theorem IsTile.select {c : IVec ⟨r, d⟩ 1} {C : IVec ⟨r, D⟩ 1} {v v' : (⟨r, d⟩ : Shape).Idx → α}
    {w w' : (⟨r, D⟩ : Shape).Idx → α} (hc : IsTile o c C) (h : IsTile o v w) (h' : IsTile o v' w') :
    IsTile o (select c v v') (select C w w') :=
  hc.map₃ Scalar.select h h'

/-! ## On the extended reals: where the kernel's spelling and the host's are one function -/

section AtIdeal
variable {φ : FTy} {v v' : FVec Ideal ⟨r, d⟩ φ} {w w' : FVec Ideal ⟨r, D⟩ φ}

/-- The kernel's quotient against the host's: both are the extended reals' division. -/
theorem IsTile.divf (h : IsTile o v w) (h' : IsTile o v' w') : IsTile o (divf v v') (Host.divf w w') := fun i I hI => by
  show Ideal.div (v i) (v' i) = Ideal.div (w I) (w' I)
  rw [h i I hI, h' i I hI]

/-- The kernel's square root against the host's: one function on the extended reals. -/
theorem IsTile.sqrt (h : IsTile o v w) : IsTile o (sqrt v) (Host.sqrt w) := fun i I hI => by
  show Ideal.sqrt (v i) = Ideal.sqrt (w I)
  rw [h i I hI]

/-- "Ordered and different" against "unordered or different": with no unordered pair, both are x ≠ y. -/
theorem IsTile.cmpf_ne (h : IsTile o v w) (h' : IsTile o v' w') : IsTile o (cmpf .one v v') (cmpf .une w w') :=
  fun i I hI => by
    show Ideal.cmp .one (v i) (v' i) = Ideal.cmp .une (w I) (w' I)
    rw [h i I hI, h' i I hI]
    rfl

end AtIdeal

/-- Equality of words does not care about the order of its operands. -/
theorem IsTile.cmpi_eq_swap {n : ℕ} {v v' : IVec ⟨r, d⟩ n} {w w' : IVec ⟨r, D⟩ n} (h : IsTile o v w) (h' : IsTile o v' w') :
    IsTile o (Idealize.ShloMosaic.cmpi .eq v v') (Idealize.ShloMosaic.cmpi .eq w' w) := fun i I hI => by
  show IntOp.cmpi .eq (v i) (v' i) = IntOp.cmpi .eq (w' I) (w I)
  rw [h i I hI, h' i I hI]
  show BitVec.ofBool (w I == w' I) = BitVec.ofBool (w' I == w I)
  rw [Bool.beq_comm]

/-- A one-bit word as a float: the kernel widens it to 32 bits and converts signed, the host converts it unsigned; both
    give the real number 0 or 1. -/
theorem IsTile.bitToFloat {c : IVec ⟨r, d⟩ 1} {C : IVec ⟨r, D⟩ 1} (hlt : 1 < 32) (h : IsTile o c C) :
    IsTile o (sitofp (F := Ideal) .f32 (extui 32 c hlt)) (uitofp (F := Ideal) .f32 C) := fun i I hI => by
  show ((((c i).setWidth 32).toInt : ℝ) : EReal) = (((C I).toNat : ℝ) : EReal)
  rw [h i I hI]
  rcases BitVec.eq_zero_or_eq_one (C I) with e | e <;> rw [e] <;> simp

/-- A unit-stride slice that starts at 0 on axis 0 (so leaves the batch axis whole) keeps tiles. -/
theorem IsTile.slice {v : (⟨r, d⟩ : Shape).Idx → α} {w : (⟨r, D⟩ : Shape).Idx → α} (off : Fin r → ℕ)
    (hoff : ∀ a : Fin r, a.val = 0 → off a = 0) (h : (⟨r, d⟩ : Shape).Slices off ⟨r, d'⟩)
    (H : (⟨r, D⟩ : Shape).Slices off ⟨r, D'⟩) (hv : IsTile o v w) :
    IsTile o (extractStridedSlice (⟨r, d'⟩ : Shape) off v h) (extractStridedSlice (⟨r, D'⟩ : Shape) off w H) := by
  intro i I hI
  unfold extractStridedSlice
  refine hv _ _ fun a => ?_
  have e := hI a
  show off a + (I (a.cast H.1.symm)).val = off a + (i (a.cast h.1.symm)).val + _
  have e1 : (I (a.cast H.1.symm)).val = (I a).val := rfl
  have e2 : (i (a.cast h.1.symm)).val = (i a).val := rfl
  rw [e1, e2, e]; omega

/-! ## Rank 4 against rank 3: the trailing axis -/

section Trailing
variable {b B m n k : ℕ}

/-- Dropping a trailing unit axis: [b, m, n, 1] read as [b, m, n]. -/
theorem IsTile.dropLast {v : (⟨4, ![b, m, n, 1]⟩ : Shape).Idx → α} {w : (⟨4, ![B, m, n, 1]⟩ : Shape).Idx → α}
    (h : (⟨4, ![b, m, n, 1]⟩ : Shape).ShapeCasts ⟨3, ![b, m, n]⟩) (H : (⟨4, ![B, m, n, 1]⟩ : Shape).ShapeCasts ⟨3, ![B, m, n]⟩)
    (hv : IsTile o v w) :
    IsTile o (shapeCast (⟨3, ![b, m, n]⟩ : Shape) v h) (shapeCast (⟨3, ![B, m, n]⟩ : Shape) w H) := by
  intro i I hI
  let k₁ : (⟨4, ![b, m, n, 1]⟩ : Shape).Idx := fun a => match a with
    | ⟨0, _⟩ => i 0 | ⟨1, _⟩ => i 1 | ⟨2, _⟩ => i 2 | ⟨3, _⟩ => ⟨0, Nat.one_pos⟩
  let K₁ : (⟨4, ![B, m, n, 1]⟩ : Shape).Idx := fun a => match a with
    | ⟨0, _⟩ => I 0 | ⟨1, _⟩ => I 1 | ⟨2, _⟩ => I 2 | ⟨3, _⟩ => ⟨0, Nat.one_pos⟩
  have e₁ : shapeCast (⟨3, ![b, m, n]⟩ : Shape) v h i = v k₁ :=
    shapeCast_apply v h i k₁ (by
      rw [Shape.rowMajor_val_four, Shape.rowMajor_val_three]
      show (((i 0).val * m + (i 1).val) * n + (i 2).val) * 1 + 0 = ((i 0).val * m + (i 1).val) * n + (i 2).val
      rw [Nat.mul_one, Nat.add_zero])
  have e₂ : shapeCast (⟨3, ![B, m, n]⟩ : Shape) w H I = w K₁ :=
    shapeCast_apply w H I K₁ (by
      rw [Shape.rowMajor_val_four, Shape.rowMajor_val_three]
      show (((I 0).val * m + (I 1).val) * n + (I 2).val) * 1 + 0 = ((I 0).val * m + (I 1).val) * n + (I 2).val
      rw [Nat.mul_one, Nat.add_zero])
  rw [e₁, e₂]
  refine hv k₁ K₁ fun a => ?_
  match a with
  | ⟨0, _⟩ => exact hI 0
  | ⟨1, _⟩ => exact hI 1
  | ⟨2, _⟩ => exact hI 2
  | ⟨3, _⟩ => rfl

/-- On the extended reals, a sum over the trailing axis: the kernel's lane reduction into a zero accumulator against
    the host's reduce from a zero initial value. -/
theorem IsTile.sumLast {v : FVec Ideal ⟨4, ![b, m, n, k]⟩ .f32} {w : FVec Ideal ⟨4, ![B, m, n, k]⟩ .f32} {u : Shape}
    (h : (⟨4, ![b, m, n, k]⟩ : Shape).Reduces [3] ⟨3, ![b, m, n]⟩) (hφ : FKind.Formats .f32)
    (hacc : (0x00000000#32 : BitVec 32) = FKind.add.neutral .f32 hφ)
    (H' : (⟨4, ![B, m, n, k]⟩ : Shape).ReducesTo [3] ⟨3, ![B, m, n]⟩)
    (H : (⟨4, ![B, m, n, k]⟩ : Shape).Reduces [3] ⟨3, ![B, m, n]⟩) (hu : 0 < u.numel)
    (hv : IsTile o v w) :
    IsTile o (multiReduction .add [3] (⟨3, ![b, m, n]⟩ : Shape) v 0x00000000#32 h hφ hacc)
      (Host.reduceAdd w (constant (F := Ideal) u .f32 0x00000000#32) H' hu) := by
  intro i I hI
  have e₁ := Ideal.multiReduction_add_single v 0x00000000#32 h hφ hacc i
  have e₂ : Host.reduceAdd w (constant (F := Ideal) u .f32 0x00000000#32) H' hu I
      = Ideal.ofBits .f32 0x00000000#32 + ∑ c : Fin k, w (H.lift I c) :=
    Ideal.hostReduceAdd_single H' H w _ I
  rw [e₁, e₂, Ideal.ofBits_zero_f32, zero_add]
  refine Finset.sum_congr rfl fun c _ => hv _ _ fun a => ?_
  match a with
  | ⟨0, _⟩ => exact hI 0
  | ⟨1, _⟩ => exact hI 1
  | ⟨2, _⟩ => exact hI 2
  | ⟨3, _⟩ => rfl

/-- Adding a trailing unit axis: the kernel casts [b, m, n] to [b, m, n, 1], the host broadcasts along the three axes. -/
theorem IsTile.addLast {v : (⟨3, ![b, m, n]⟩ : Shape).Idx → α} {w : (⟨3, ![B, m, n]⟩ : Shape).Idx → α}
    (h : (⟨3, ![b, m, n]⟩ : Shape).ShapeCasts ⟨4, ![b, m, n, 1]⟩)
    (H : (⟨3, ![B, m, n]⟩ : Shape).BroadcastsInDim ⟨4, ![B, m, n, 1]⟩ ![0, 1, 2]) (hv : IsTile o v w) :
    IsTile o (shapeCast (⟨4, ![b, m, n, 1]⟩ : Shape) v h) (broadcastInDim (⟨4, ![B, m, n, 1]⟩ : Shape) ![0, 1, 2] H w) := by
  intro i I hI
  let k₁ : (⟨3, ![b, m, n]⟩ : Shape).Idx := fun a => match a with | ⟨0, _⟩ => i 0 | ⟨1, _⟩ => i 1 | ⟨2, _⟩ => i 2
  let K₁ : (⟨3, ![B, m, n]⟩ : Shape).Idx := fun a => match a with | ⟨0, _⟩ => I 0 | ⟨1, _⟩ => I 1 | ⟨2, _⟩ => I 2
  have i3 : (i 3).val < 1 := (i 3).isLt
  have I0 : (I 0).val < B := (I 0).isLt
  have I1 : (I 1).val < m := (I 1).isLt
  have I2 : (I 2).val < n := (I 2).isLt
  have e₁ : shapeCast (⟨4, ![b, m, n, 1]⟩ : Shape) v h i = v k₁ :=
    shapeCast_apply v h i k₁ (by
      rw [Shape.rowMajor_val_four, Shape.rowMajor_val_three]
      show ((i 0).val * m + (i 1).val) * n + (i 2).val = (((i 0).val * m + (i 1).val) * n + (i 2).val) * 1 + (i 3).val
      omega)
  have e₂ : broadcastInDim (⟨4, ![B, m, n, 1]⟩ : Shape) ![0, 1, 2] H w I = w K₁ :=
    broadcastInDim_apply _ H w I K₁ (fun a => match a with
      | ⟨0, _⟩ => by
          show (I 0).val = if B = 1 then 0 else (I 0).val
          split_ifs <;> omega
      | ⟨1, _⟩ => by
          show (I 1).val = if m = 1 then 0 else (I 1).val
          split_ifs <;> omega
      | ⟨2, _⟩ => by
          show (I 2).val = if n = 1 then 0 else (I 2).val
          split_ifs <;> omega)
  rw [e₁, e₂]
  refine hv k₁ K₁ fun a => ?_
  match a with
  | ⟨0, _⟩ => exact hI 0
  | ⟨1, _⟩ => exact hI 1
  | ⟨2, _⟩ => exact hI 2

/-- Repeating a trailing unit axis k times: the kernel's vector broadcast against the host's broadcast along all four axes. -/
theorem IsTile.bcastLast {v : (⟨4, ![b, m, n, 1]⟩ : Shape).Idx → α} {w : (⟨4, ![B, m, n, 1]⟩ : Shape).Idx → α}
    (h : (⟨4, ![b, m, n, 1]⟩ : Shape).Broadcasts ⟨4, ![b, m, n, k]⟩)
    (H : (⟨4, ![B, m, n, 1]⟩ : Shape).BroadcastsInDim ⟨4, ![B, m, n, k]⟩ ![0, 1, 2, 3]) (hv : IsTile o v w) :
    IsTile o (broadcastTo (⟨4, ![b, m, n, k]⟩ : Shape) v h) (broadcastInDim (⟨4, ![B, m, n, k]⟩ : Shape) ![0, 1, 2, 3] H w) := by
  intro i I hI
  let k₁ : (⟨4, ![b, m, n, 1]⟩ : Shape).Idx := fun a => match a with
    | ⟨0, _⟩ => i 0 | ⟨1, _⟩ => i 1 | ⟨2, _⟩ => i 2 | ⟨3, _⟩ => ⟨0, Nat.one_pos⟩
  let K₁ : (⟨4, ![B, m, n, 1]⟩ : Shape).Idx := fun a => match a with
    | ⟨0, _⟩ => I 0 | ⟨1, _⟩ => I 1 | ⟨2, _⟩ => I 2 | ⟨3, _⟩ => ⟨0, Nat.one_pos⟩
  have i0 : (i 0).val < b := (i 0).isLt
  have i1 : (i 1).val < m := (i 1).isLt
  have i2 : (i 2).val < n := (i 2).isLt
  have I0 : (I 0).val < B := (I 0).isLt
  have I1 : (I 1).val < m := (I 1).isLt
  have I2 : (I 2).val < n := (I 2).isLt
  have e₁ : broadcastTo (⟨4, ![b, m, n, k]⟩ : Shape) v h i = v k₁ :=
    broadcastTo_apply v h i k₁ (fun a => match a with
      | ⟨0, _⟩ => by
          show (i 0).val = if b = 1 then 0 else (i 0).val
          split_ifs <;> omega
      | ⟨1, _⟩ => by
          show (i 1).val = if m = 1 then 0 else (i 1).val
          split_ifs <;> omega
      | ⟨2, _⟩ => by
          show (i 2).val = if n = 1 then 0 else (i 2).val
          split_ifs <;> omega
      | ⟨3, _⟩ => by
          show 0 = if (1 : ℕ) = 1 then 0 else (i 3).val
          rw [if_pos rfl])
  have e₂ : broadcastInDim (⟨4, ![B, m, n, k]⟩ : Shape) ![0, 1, 2, 3] H w I = w K₁ :=
    broadcastInDim_apply _ H w I K₁ (fun a => match a with
      | ⟨0, _⟩ => by
          show (I 0).val = if B = 1 then 0 else (I 0).val
          split_ifs <;> omega
      | ⟨1, _⟩ => by
          show (I 1).val = if m = 1 then 0 else (I 1).val
          split_ifs <;> omega
      | ⟨2, _⟩ => by
          show (I 2).val = if n = 1 then 0 else (I 2).val
          split_ifs <;> omega
      | ⟨3, _⟩ => by
          show 0 = if (1 : ℕ) = 1 then 0 else (I 3).val
          rw [if_pos rfl])
  rw [e₁, e₂]
  refine hv k₁ K₁ fun a => ?_
  match a with
  | ⟨0, _⟩ => exact hI 0
  | ⟨1, _⟩ => exact hI 1
  | ⟨2, _⟩ => exact hI 2
  | ⟨3, _⟩ => rfl

/-- The coordinate along the trailing axis: the kernel's iota over [b, m, n, k] against the host's iota over
    [1, 1, 1, k] broadcast along all four axes. -/
theorem IsTile.iotaLast (hi : (⟨4, ![b, m, n, k]⟩ : Shape).Iotas .tc 32 [3])
    (H : (⟨4, ![1, 1, 1, k]⟩ : Shape).BroadcastsInDim ⟨4, ![B, m, n, k]⟩ ![0, 1, 2, 3]) :
    IsTile o (iota .tc (⟨4, ![b, m, n, k]⟩ : Shape) 32 [3] hi)
      (broadcastInDim (⟨4, ![B, m, n, k]⟩ : Shape) ![0, 1, 2, 3] H (iotaInDim (⟨4, ![1, 1, 1, k]⟩ : Shape) 32 3)) := by
  intro i I hI
  let K₁ : (⟨4, ![1, 1, 1, k]⟩ : Shape).Idx := fun a => match a with
    | ⟨0, _⟩ => ⟨0, Nat.one_pos⟩ | ⟨1, _⟩ => ⟨0, Nat.one_pos⟩ | ⟨2, _⟩ => ⟨0, Nat.one_pos⟩ | ⟨3, _⟩ => I 3
  have I3 : (I 3).val < k := (I 3).isLt
  have e₂ : broadcastInDim (⟨4, ![B, m, n, k]⟩ : Shape) ![0, 1, 2, 3] H (iotaInDim (⟨4, ![1, 1, 1, k]⟩ : Shape) 32 3) I
      = iotaInDim (⟨4, ![1, 1, 1, k]⟩ : Shape) 32 3 K₁ :=
    broadcastInDim_apply _ H _ I K₁ (fun a => match a with
      | ⟨0, _⟩ => by
          show 0 = if (1 : ℕ) = 1 then 0 else (I 0).val
          rw [if_pos rfl]
      | ⟨1, _⟩ => by
          show 0 = if (1 : ℕ) = 1 then 0 else (I 1).val
          rw [if_pos rfl]
      | ⟨2, _⟩ => by
          show 0 = if (1 : ℕ) = 1 then 0 else (I 2).val
          rw [if_pos rfl]
      | ⟨3, _⟩ => by
          show (I 3).val = if k = 1 then 0 else (I 3).val
          split_ifs <;> omega)
  rw [iota_single_apply, e₂]
  show BitVec.ofNat 32 (i 3).val = BitVec.ofNat 32 (I 3).val
  have e := hI 3
  have e' : (I 3).val = (i 3).val := by rw [e]; rfl
  rw [e']

end Trailing

end BatchTile

end
-- ==== Proof.SumIdx.lean ====
/-
  Sums over index sets, by coordinates. A sum over every index of a rank-1 or rank-3 array is the iterated sum over
  its coordinates; a sum over a batch axis of 64 · 256 places is the sum over 64 tiles of the sums over the 256 places
  of a tile; and the kernel's three lane reductions of a [256, 7, 7] tile (over the last axis, then the middle one,
  then the first, each kept as a unit axis) add up, on the extended reals, every entry of the tile.
-/
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace SumIdx

open Idealize.ShloMosaic Idealize.ShloMosaic.ValueIdx

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over m · n places is the sum over m tiles of the sums over the n places of a tile. -/
theorem sum_tiles {M : Type*} [AddCommMonoid M] (m n : Nat) (g : Fin (m * n) → M) :
    ∑ a, g a = ∑ t : Fin m, ∑ b : Fin n, g ⟨n * t.val + b.val, by
      have ht := t.isLt; have hb := b.isLt
      calc n * t.val + b.val < n * t.val + n := by omega
        _ = n * (t.val + 1) := by ring
        _ ≤ n * m := Nat.mul_le_mul_left n ht
        _ = m * n := Nat.mul_comm n m⟩ := by
  rw [← Equiv.sum_comp finProdFinEquiv g, Fintype.sum_prod_type]
  refine Finset.sum_congr rfl fun t _ => Finset.sum_congr rfl fun b _ => congrArg g (Fin.ext ?_)
  show b.val + n * t.val = n * t.val + b.val
  omega

/-- Every entry of a [16384, 7, 7] array, added up tile by tile along the batch axis. -/
theorem sum_batch_tiles {M : Type*} [AddCommMonoid M] (W : (⟨3, ![16384, 7, 7]⟩ : Shape).Idx → M) :
    ∑ I, W I = ∑ t : Fin 64, ∑ b : Fin 256, ∑ p : Fin 7, ∑ q : Fin 7,
      W (ix3 (⟨256 * t.val + b.val, by have := t.isLt; have := b.isLt; omega⟩ : Fin 16384) p q) := by
  rw [sum_idx3]
  exact sum_tiles 64 256 fun a => ∑ p : Fin 7, ∑ q : Fin 7, W (ix3 a p q)

/-- The kernel's sum of a [256, 7, 7] tile: lanes first, then rows, then the batch places, each reduced axis kept as
    a unit axis by a cast. On the extended reals the one entry of the result is the sum of every entry of the tile. -/
theorem tileSum_apply (L : FVec Ideal ⟨3, ![256, 7, 7]⟩ .f32)
    (h2 : (⟨3, ![256, 7, 7]⟩ : Shape).Reduces [2] ⟨2, ![256, 7]⟩) (c1 : (⟨2, ![256, 7]⟩ : Shape).ShapeCasts ⟨3, ![256, 7, 1]⟩)
    (h1 : (⟨3, ![256, 7, 1]⟩ : Shape).Reduces [1] ⟨2, ![256, 1]⟩) (c2 : (⟨2, ![256, 1]⟩ : Shape).ShapeCasts ⟨3, ![256, 1, 1]⟩)
    (h0 : (⟨3, ![256, 1, 1]⟩ : Shape).Reduces [0] ⟨2, ![1, 1]⟩) (c3 : (⟨2, ![1, 1]⟩ : Shape).ShapeCasts ⟨3, ![1, 1, 1]⟩)
    (hφ : FKind.Formats .f32) (ha : (0x00000000#32 : BitVec 32) = FKind.add.neutral .f32 hφ)
    (j : (⟨3, ![1, 1, 1]⟩ : Shape).Idx) :
    shapeCast (⟨3, ![1, 1, 1]⟩ : Shape)
      (multiReduction .add [0] (⟨2, ![1, 1]⟩ : Shape)
        (shapeCast (⟨3, ![256, 1, 1]⟩ : Shape)
          (multiReduction .add [1] (⟨2, ![256, 1]⟩ : Shape)
            (shapeCast (⟨3, ![256, 7, 1]⟩ : Shape)
              (multiReduction .add [2] (⟨2, ![256, 7]⟩ : Shape) L 0x00000000#32 h2 hφ ha) c1)
            0x00000000#32 h1 hφ ha) c2)
        0x00000000#32 h0 hφ ha) c3 j
      = ∑ b : Fin 256, ∑ p : Fin 7, ∑ q : Fin 7, L (ix3 b p q) := by
  have j0 : (j 0).val < 1 := (j 0).isLt
  have j1 : (j 1).val < 1 := (j 1).isLt
  have j2 : (j 2).val < 1 := (j 2).isLt
  refine (shapeCast_apply _ c3 j (ix2 (0 : Fin 1) (0 : Fin 1)) (by
    rw [Shape.rowMajor_val_two, Shape.rowMajor_val_three]
    show 0 * 1 + 0 = ((j 0).val * 1 + (j 1).val) * 1 + (j 2).val
    omega)).trans ?_
  refine (Ideal.multiReduction_add_single _ _ h0 hφ ha _).trans ?_
  refine Finset.sum_congr rfl fun b _ => ?_
  refine (shapeCast_apply _ c2 _ (ix2 (b : Fin 256) (0 : Fin 1)) (by
    rw [Shape.rowMajor_val_two, Shape.rowMajor_val_three]
    show b.val * 1 + 0 = (b.val * 1 + 0) * 1 + 0
    omega)).trans ?_
  refine (Ideal.multiReduction_add_single _ _ h1 hφ ha _).trans ?_
  refine Finset.sum_congr rfl fun p _ => ?_
  refine (shapeCast_apply _ c1 _ (ix2 (b : Fin 256) (p : Fin 7)) (by
    rw [Shape.rowMajor_val_two, Shape.rowMajor_val_three]
    show b.val * 7 + p.val = (b.val * 7 + p.val) * 1 + 0
    omega)).trans ?_
  refine (Ideal.multiReduction_add_single _ _ h2 hφ ha _).trans ?_
  refine Finset.sum_congr rfl fun q _ => congrArg L (funext fun a => ?_)
  match a with
  | ⟨0, _⟩ => rfl
  | ⟨1, _⟩ => rfl
  | ⟨2, _⟩ => rfl

end SumIdx

end
-- ==== Proof.LossTile.lean ====
/-
  The loss of one cell, tile by tile. Inside a batch tile the kernel computes, cell by cell, the same tree of
  operations the reference applies to the whole arrays: the two intersection-over-union quotients, the squared
  coordinate differences, the one-hot class difference, and the select between the two cases of a cell. So the
  kernel's array of cell losses over a tile is the tile of the reference's array of cell losses, and the one number
  the kernel keeps per tile is the sum of the reference's cell losses over that tile.
-/
import proofs.«166144_j38079180046686_2_alg».proof.Proof.Gen.KernelIdeal.Skeleton
import proofs.«166144_j38079180046686_2_alg».proof.Proof.RefRead
import proofs.«166144_j38079180046686_2_alg».proof.Proof.LibBatchTile
import proofs.«166144_j38079180046686_2_alg».proof.Proof.SumIdx

noncomputable section

namespace Cert.LossTile

open Idealize.ShloMosaic Idealize.ShloMosaic.ValueIdx BatchTile
open Cert.KernelIdeal Cert.KernelIdeal.Gen

open Lean Elab Tactic Meta in
/-- One structural step: the small array's outermost operation decides which tile lemma applies; the large array's
    term is unfolded by unification. A goal that is not a tile statement is a decidable fact about literal shapes. -/
elab "tile_step" : tactic => withMainContext do
  let g ← getMainGoal
  let t ← whnfR (← instantiateMVars (← g.getType))
  if !t.isAppOf ``BatchTile.IsTile then
    evalTactic (← `(tactic| decide))
  else
    let lhs ← whnfR (t.getAppArgs[5]!).consumeMData
    match lhs.getAppFn with
    | .fvar _ => evalTactic (← `(tactic| assumption))
    | .const n _ =>
      if n == ``Idealize.ShloMosaic.addf then evalTactic (← `(tactic| apply IsTile.addf))
      else if n == ``Idealize.ShloMosaic.subf then evalTactic (← `(tactic| apply IsTile.subf))
      else if n == ``Idealize.ShloMosaic.mulf then evalTactic (← `(tactic| apply IsTile.mulf))
      else if n == ``Idealize.ShloMosaic.divf then evalTactic (← `(tactic| apply IsTile.divf))
      else if n == ``Idealize.ShloMosaic.maximumf then evalTactic (← `(tactic| apply IsTile.maximumf))
      else if n == ``Idealize.ShloMosaic.minimumf then evalTactic (← `(tactic| apply IsTile.minimumf))
      else if n == ``Idealize.ShloMosaic.sqrt then evalTactic (← `(tactic| apply IsTile.sqrt))
      else if n == ``Idealize.ShloMosaic.cmpf then evalTactic (← `(tactic| apply IsTile.cmpf_ne))
      else if n == ``Idealize.ShloMosaic.select then evalTactic (← `(tactic| apply IsTile.select))
      else if n == ``Idealize.ShloMosaic.fptosi then evalTactic (← `(tactic| apply IsTile.fptosi))
      else if n == ``Idealize.ShloMosaic.subi then evalTactic (← `(tactic| apply IsTile.subi))
      else if n == ``Idealize.ShloMosaic.cmpi then evalTactic (← `(tactic| apply IsTile.cmpi_eq_swap))
      else if n == ``Idealize.ShloMosaic.sitofp then evalTactic (← `(tactic| apply IsTile.bitToFloat))
      else if n == ``Idealize.ShloMosaic.broadcast then
        evalTactic (← `(tactic| first | exact IsTile.splat _ _ _ | exact IsTile.splatI _ _ _))
      else if n == ``Idealize.ShloMosaic.iota then evalTactic (← `(tactic| exact IsTile.iotaLast _ _))
      else if n == ``Idealize.ShloMosaic.extractStridedSlice then evalTactic (← `(tactic| apply IsTile.slice))
      else if n == ``Idealize.ShloMosaic.shapeCast then
        evalTactic (← `(tactic| first | apply IsTile.dropLast | apply IsTile.addLast))
      else if n == ``Idealize.ShloMosaic.broadcastTo then evalTactic (← `(tactic| apply IsTile.bcastLast))
      else if n == ``Idealize.ShloMosaic.multiReduction then evalTactic (← `(tactic| apply IsTile.sumLast))
      else throwError "tile_step: no tile lemma for {n}"
    | e => throwError "tile_step: unexpected head {e}"

/-- The index of a cell of tile `t` in the whole batch. -/
abbrev cellOf (t : Fin 64) (b : Fin 256) (p q : Fin 7) : (⟨3, ![16384, 7, 7]⟩ : Shape).Idx :=
  ix3 (⟨256 * t.val + b.val, by have := t.isLt; have := b.isLt; omega⟩ : Fin 16384) p q

theorem shift_cellOf (t : Fin 64) (b : Fin 256) (p q : Fin 7) :
    Shift (256 * t.val) (ix3 b p q : (⟨3, ![256, 7, 7]⟩ : Shape).Idx) (cellOf t b p q) := fun a => by
  match a with
  | ⟨0, _⟩ => show 256 * t.val + b.val = b.val + 256 * t.val; omega
  | ⟨1, _⟩ => rfl
  | ⟨2, _⟩ => rfl

set_option maxHeartbeats 4000000 in
set_option maxRecDepth 65536 in
/-- THE TILE'S NUMBER. When the two loaded blocks are the tiles of the two argument arrays that start at batch place
    256·t, the one entry the kernel's reductions leave is the sum, over the cells of that tile, of the reference's
    cell loss. -/
theorem tile_total (t : Fin 64) (x0 : Vec Ideal S256x7x7x30 .f32) (x1 : Vec Ideal S256x7x7x8 .f32)
    (X0 : (⟨4, ![16384, 7, 7, 30]⟩ : Shape).Idx → Elt Ideal .f32) (X1 : (⟨4, ![16384, 7, 7, 8]⟩ : Shape).Idx → Elt Ideal .f32)
    (h0 : IsTile (256 * t.val) x0 X0) (h1 : IsTile (256 * t.val) x1 X1) (j : S1x1x1.Idx) :
    k0_pay32 (k0_pay2 x1) (k0_pay3 x1) (k0_pay5 x0) (k0_pay6 x0) (k0_pay7 x0) (k0_pay27 x0 x1) (k0_pay28 (k0_pay6 x0) (k0_pay7 x0) (k0_pay16 (k0_pay8 x0) (k0_pay9 x0) (k0_pay10 x0) (k0_pay11 x0) (k0_pay12 x1) (k0_pay13 x1) (k0_pay14 x1) (k0_pay15 x1)) (k0_pay19 (k0_pay5 x0)) (k0_pay20 (k0_pay5 x0)) (k0_pay21 (k0_pay5 x0)) (k0_pay22 (k0_pay3 x1)) (k0_pay23 (k0_pay3 x1)) (k0_pay24 (k0_pay3 x1)) (k0_pay25 (k0_pay3 x1) (k0_pay5 x0) (k0_pay17 (k0_pay5 x0)) (k0_pay18 (F := Ideal))) (k0_pay26 (F := Ideal))) (k0_pay29 (k0_pay3 x1) (k0_pay4 x0)) (k0_pay30 (k0_pay4 x0)) (k0_pay31 (F := Ideal)) j
      = ∑ b : Fin 256, ∑ p : Fin 7, ∑ q : Fin 7, Cert.ReferenceIdeal.ReadP.val_main_v218 (F := Ideal) X0 X1 (cellOf t b p q) := by
  unfold k0_pay32
  dsimp only
  refine (SumIdx.tileSum_apply _ _ _ _ _ _ _ _ _ j).trans ?_
  refine Finset.sum_congr rfl fun b _ => Finset.sum_congr rfl fun p _ => Finset.sum_congr rfl fun q _ => ?_
  refine (?_ : IsTile (256 * t.val) _ (Cert.ReferenceIdeal.ReadP.val_main_v218 (F := Ideal) X0 X1)) _ _ (shift_cellOf t b p q)
  try unfold k0_pay31
  try unfold k0_pay30
  try unfold k0_pay29
  try unfold k0_pay28
  try unfold k0_pay27
  try unfold k0_pay26
  try unfold k0_pay25
  try unfold k0_pay24
  try unfold k0_pay23
  try unfold k0_pay22
  try unfold k0_pay21
  try unfold k0_pay20
  try unfold k0_pay19
  try unfold k0_pay18
  try unfold k0_pay17
  try unfold k0_pay16
  try unfold k0_pay15
  try unfold k0_pay14
  try unfold k0_pay13
  try unfold k0_pay12
  try unfold k0_pay11
  try unfold k0_pay10
  try unfold k0_pay9
  try unfold k0_pay8
  try unfold k0_pay7
  try unfold k0_pay6
  try unfold k0_pay5
  try unfold k0_pay4
  try unfold k0_pay3
  try unfold k0_pay2
  dsimp only
  repeat' tile_step

end Cert.LossTile

end
-- ==== Proof.KernelValue.lean ====
/-
  The kernel's result as a function of the two argument arrays. Grid point t loads rows 256·t … 256·t + 255 of each
  argument (a batch tile), and writes back a [1, 8, 128] block that holds, at entry (0, 0, 0), the sum of the cell
  losses over that tile (the other entries are that number times 0). The 64 blocks tile the [64, 8, 128] result of
  the call; the host lines after the call pick entry (t, 0, 0) of every block, add the 64 numbers and divide by 16384.
-/
import proofs.«166144_j38079180046686_2_alg».proof.Proof.Gen.KernelIdeal.Frame
import proofs.«166144_j38079180046686_2_alg».proof.Proof.LossTile
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open BatchTile

namespace Cert.KernelIdeal.Hand

open Cert.KernelIdeal Cert.KernelIdeal.Gen

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The printed index maps, decided over the grid: point t takes block t along the batch axis and block 0 elsewhere. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-- Input window 0's block at point t is the batch tile of the first argument that starts at place 256·t. -/
theorem iblk0_tile (c : Dev nD) (t : Fin cfg0.N) :
    IsTile (256 * t.val) (iblk m c 0 t : Vec Ideal S256x7x7x30 .f32)
      (m ((c : Thread nD τ).loc main_arg0) : S16384x7x7x30.Idx → Elt Ideal .f32) := by
  intro x k hk
  obtain ⟨e0, e1, e2, e3, -⟩ := idx_facts t
  have k0 : (k 0).val = (x 0).val + 256 * t.val := hk 0
  have k1 : (k 1).val = (x 1).val + 0 := hk 1
  have k2 : (k 2).val = (x 2).val + 0 := hk 2
  have k3 : (k 3).val = (x 3).val + 0 := hk 3
  unfold iblk
  rw [View.read_apply]
  show V m c main_arg0 _ = m (c.tc.loc main_arg0) _
  unfold V
  congr 1
  funext a
  apply Fin.ext
  match a with
  | ⟨0, _⟩ => show win0_0.index t 0 * 256 + 1 * (x 0).val = (k 0).val; rw [e0, k0]; omega
  | ⟨1, _⟩ => show win0_0.index t 1 * 7 + 1 * (x 1).val = (k 1).val; rw [e1, k1]; omega
  | ⟨2, _⟩ => show win0_0.index t 2 * 7 + 1 * (x 2).val = (k 2).val; rw [e2, k2]; omega
  | ⟨3, _⟩ => show win0_0.index t 3 * 30 + 1 * (x 3).val = (k 3).val; rw [e3, k3]; omega

/-- Input window 1's block at point t is the batch tile of the second argument that starts at place 256·t. -/
theorem iblk1_tile (c : Dev nD) (t : Fin cfg0.N) :
    IsTile (256 * t.val) (iblk m c 1 t : Vec Ideal S256x7x7x8 .f32)
      (m ((c : Thread nD τ).loc main_arg1) : S16384x7x7x8.Idx → Elt Ideal .f32) := by
  intro x k hk
  obtain ⟨-, -, -, -, e0, e1, e2, e3, -⟩ := idx_facts t
  have k0 : (k 0).val = (x 0).val + 256 * t.val := hk 0
  have k1 : (k 1).val = (x 1).val + 0 := hk 1
  have k2 : (k 2).val = (x 2).val + 0 := hk 2
  have k3 : (k 3).val = (x 3).val + 0 := hk 3
  unfold iblk
  rw [View.read_apply]
  show V m c main_arg1 _ = m (c.tc.loc main_arg1) _
  unfold V
  congr 1
  funext a
  apply Fin.ext
  match a with
  | ⟨0, _⟩ => show win0_1.index t 0 * 256 + 1 * (x 0).val = (k 0).val; rw [e0, k0]; omega
  | ⟨1, _⟩ => show win0_1.index t 1 * 7 + 1 * (x 1).val = (k 1).val; rw [e1, k1]; omega
  | ⟨2, _⟩ => show win0_1.index t 2 * 7 + 1 * (x 2).val = (k 2).val; rw [e2, k2]; omega
  | ⟨3, _⟩ => show win0_1.index t 3 * 8 + 1 * (x 3).val = (k 3).val; rw [e3, k3]; omega

/-- The grid point whose block holds array index I. -/
def pointOf (I : S64x8x128.Idx) : Fin cfg0.N := ⟨(I 0).val, by rw [show cfg0.N = 64 from N_0]; exact (I 0).isLt⟩

/-- The place of array index I inside its block. -/
def inBlock (I : S64x8x128.Idx) : S1x8x128.Idx := fun a => match a with
  | ⟨0, _⟩ => ⟨0, Nat.one_pos⟩
  | ⟨1, _⟩ => ⟨(I 1).val, (I 1).isLt⟩
  | ⟨2, _⟩ => ⟨(I 2).val, (I 2).isLt⟩

/-- Whatever the blocks are: if point t's block holds `Ob t`, what point t writes back is block t of the array that
    reads, at index I, block `pointOf I` at place `inBlock I`. -/
theorem flushed_gen (t : Fin cfg0.N) (Ob : Fin cfg0.N → Vec Ideal S1x8x128 .f32) :
    (cfg0.win 2).cut (grid0.coords t) (Ob t)
      = ((cfg0.win 2).blk t).view.read (Elt Ideal) ((fun I => Ob (pointOf I) (inBlock I)) : S64x8x128.Idx → Elt Ideal .f32) := by
  obtain ⟨-, -, -, -, -, -, -, -, e0, e1, e2⟩ := idx_facts t
  funext y
  rw [View.read_apply]
  have y0 : (y 0).val < 1 := (y 0).isLt
  have hp : pointOf (((cfg0.win 2).blk t).view.emb y) = t := Fin.ext (by
    show win0_2.index t 0 * 1 + 1 * (y 0).val = t.val
    rw [e0]; omega)
  have hb : inBlock (((cfg0.win 2).blk t).view.emb y) = y := funext fun a => Fin.ext (by
    match a with
    | ⟨0, _⟩ => show 0 = (y 0).val; omega
    | ⟨1, _⟩ => show win0_2.index t 1 * 8 + 1 * (y 1).val = (y 1).val; rw [e1]; omega
    | ⟨2, _⟩ => show win0_2.index t 2 * 128 + 1 * (y 2).val = (y 2).val; rw [e2]; omega)
  show Ob t y = Ob (pointOf (((cfg0.win 2).blk t).view.emb y)) (inBlock (((cfg0.win 2).blk t).view.emb y))
  rw [hp, hb]

/-- What each grid point's body leaves in the output window's buffer, from that point's two input blocks. -/
def blockAt (c : Dev nD) (t : Fin cfg0.N) : Vec Ideal S1x8x128 .f32 := out0_2 (iblk m c 0 t) (iblk m c 1 t)

/-- The call's result array: at index (t, r, l), what point t's body leaves at (0, r, l) of its block. -/
def outArr (c : Dev nD) : Buf (Elt Ideal) ((c : Thread nD τ).loc main_v0) := fun I => blockAt m c (pointOf I) (inBlock I)

/-- What point t writes back is block t of that array. -/
theorem flushed_eq (c : Dev nD) (t : Fin cfg0.N) :
    (dats m 0 c).flushed 2 t = ((cfg0.win 2).blk t).view.read (Elt Ideal) (outArr m c) := by
  show (cfg0.win 2).cut (grid0.coords t) ((dats m 0 c).after 2 t) = _
  rw [after0_2]
  exact flushed_gen t (blockAt m c)

/-- An index of the array is in point t's block iff each coordinate is in the block's range on its axis. -/
theorem mem_blk (t : Fin cfg0.N) (i : S64x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0).slice (win0_2.rect t)).set ↔ _
  rw [View.set_slice_whole, Rect.mem_set_unit]
  exact Iff.rfl

/-- The 64 blocks cover the array. -/
theorem cover (i : S64x8x128.Idx) : ∃ t : Fin cfg0.N, (cfg0.win 2).flush t = true ∧ i ∈ ((cfg0.win 2).blk t).view.set := by
  refine ⟨pointOf i, flush0_2 _, ?_⟩
  obtain ⟨-, -, -, -, -, -, -, -, e0, e1, e2⟩ := idx_facts (pointOf i)
  have hp : (pointOf i).val = (i 0).val := rfl
  have i1 : (i 1).val < 8 := (i 1).isLt
  have i2 : (i 2).val < 128 := (i 2).isLt
  rw [mem_blk]
  intro a
  match a with
  | ⟨0, _⟩ => show win0_2.index (pointOf i) 0 * 1 ≤ (i 0).val ∧ (i 0).val < win0_2.index (pointOf i) 0 * 1 + 1; rw [e0, hp]; omega
  | ⟨1, _⟩ => show win0_2.index (pointOf i) 1 * 8 ≤ (i 1).val ∧ (i 1).val < win0_2.index (pointOf i) 1 * 8 + 8; rw [e1]; omega
  | ⟨2, _⟩ => show win0_2.index (pointOf i) 2 * 128 ≤ (i 2).val ∧ (i 2).val < win0_2.index (pointOf i) 2 * 128 + 128; rw [e2]; omega

/-- So the call's result array ends holding `outArr`. -/
theorem final (c : Dev nD) : (dats m 0 c).arrAt 2 cfg0.N = outArr m c :=
  (dats m 0 c).arrAt_eq_of_cover 2 (outArr m c) (fun t _ => flushed_eq m c t) cover

end Cert.KernelIdeal.Hand

end
-- ==== Proof.KernelResult.lean ====
/-
  The kernel's one number. Entry (0, 0, 0) of the block a grid point writes back is 1 times the tile's sum; the host
  lines after the call add entry (t, 0, 0) of the 64 blocks and divide by 16384. Tile by tile the sums are the
  reference's cell losses over that tile, and the 64 tiles exhaust the batch: so the result is the reference's
  result, (0 + the sum of every cell's loss) / 16384, as one term of the two argument arrays.
-/
import proofs.«166144_j38079180046686_2_alg».proof.Proof.KernelValue

noncomputable section

open Idealize.ShloMosaic Idealize.ShloMosaic.TcCoe Idealize.SL.Sem Idealize.ShloMosaic.ValueIdx
open Idealize.ShloMosaic.Pipeline (Dat)
open BatchTile

namespace Cert.KernelIdeal.Hand

open Cert.KernelIdeal Cert.KernelIdeal.Gen

variable (m : (ℓ : Loc nD τ sig) → Buf (Elt Ideal) ℓ) (ρ : Dev nD → PrngReg)

/-- The mask that is 1 at (0, 0) of an [8, 128] tile and 0 elsewhere, times the tile's sum: at an entry (·, 0, 0) of
    the block it is 1 times the sum. -/
theorem pay1_at (v231 : FVec Ideal S1x1x1 .f32) (y : S1x8x128.Idx) (h1 : (y 1).val = 0) (h2 : (y 2).val = 0) :
    k0_pay1 (F := Ideal) v231 (iota .tc S8x128 32 [1] iota_S8x128_d1_w32) k0_pay33 y
      = v231 (ix3 (0 : Fin 1) (0 : Fin 1) (0 : Fin 1)) := by
  have y0 : (y 0).val < 1 := (y 0).isLt
  unfold k0_pay1 k0_pay33
  dsimp only
  rw [mulf_apply,
    shapeCast_apply _ shapeCasts_S8x128_S1x8x128 y (ix2 (0 : Fin 8) (0 : Fin 128)) (by
      rw [Shape.rowMajor_val_two, Shape.rowMajor_val_three]
      show 0 * 128 + 0 = ((y 0).val * 8 + (y 1).val) * 128 + (y 2).val
      omega),
    broadcastTo_apply v231 broadcasts_S1x1x1_S1x8x128 y (ix3 (0 : Fin 1) (0 : Fin 1) (0 : Fin 1)) (fun a => match a with
      | ⟨0, _⟩ => by
          show 0 = if (1 : ℕ) = 1 then 0 else (y 0).val
          rw [if_pos rfl]
      | ⟨1, _⟩ => by
          show 0 = if (1 : ℕ) = 1 then 0 else (y 1).val
          rw [if_pos rfl]
      | ⟨2, _⟩ => by
          show 0 = if (1 : ℕ) = 1 then 0 else (y 2).val
          rw [if_pos rfl])]
  rw [select_apply]
  show Scalar.select (IntOp.andi (IntOp.cmpi .eq (iota .tc S8x128 32 [0] iota_S8x128_d0_w32 (ix2 (0 : Fin 8) (0 : Fin 128))) 0#32)
      (IntOp.cmpi .eq (iota .tc S8x128 32 [1] iota_S8x128_d1_w32 (ix2 (0 : Fin 8) (0 : Fin 128))) 0#32))
      (Ideal.ofBits .f32 0x3F800000#32) (Ideal.ofBits .f32 0x00000000#32) * _ = _
  rw [iota_single_apply, iota_single_apply]
  show Scalar.select (IntOp.andi (IntOp.cmpi .eq (BitVec.ofNat 32 0) 0#32) (IntOp.cmpi .eq (BitVec.ofNat 32 0) 0#32))
      (Ideal.ofBits .f32 0x3F800000#32) (Ideal.ofBits .f32 0x00000000#32) * _ = _
  rw [show IntOp.andi (IntOp.cmpi .eq (BitVec.ofNat 32 0) 0#32) (IntOp.cmpi .eq (BitVec.ofNat 32 0) 0#32) = 1#1 from by decide,
    select_one, show Ideal.ofBits .f32 0x3F800000#32 = 1 from IdealRules.sign_bit.ideal_onePat .f32, one_mul]

/-- Entry (t, 0, 0) of the call's result array is the sum of the reference's cell losses over tile t. -/
theorem outArr_at (c : Dev nD) (I : S64x8x128.Idx) (h1 : (I 1).val = 0) (h2 : (I 2).val = 0) (t : Fin 64) (ht : (I 0).val = t.val) :
    outArr m c I = ∑ b : Fin 256, ∑ p : Fin 7, ∑ q : Fin 7,
      Cert.ReferenceIdeal.ReadP.val_main_v218 (F := Ideal) (m ((c : Thread nD τ).loc main_arg0)) (m ((c : Thread nD τ).loc main_arg1))
        (Cert.LossTile.cellOf t b p q) := by
  unfold outArr blockAt out0_2
  rw [View.canon_unit_zero hz3]
  simp only [View.ld_unit_zero (S := S256x7x7x30) hz4, View.ld_unit_zero (S := S256x7x7x8) hz4]
  rw [pay1_at _ (inBlock I) h1 h2]
  have e0 := iblk0_tile m c (pointOf I)
  have e1 := iblk1_tile m c (pointOf I)
  rw [show (pointOf I).val = t.val from ht] at e0 e1
  exact Cert.LossTile.tile_total t _ _ _ _ e0 e1 _

/-- The host lines after the call, applied to the call's result array. -/
theorem tail_eq (c : Dev nD) :
    Pipeline.afterTail₀ cfgs (dats m) 0 (V0 m) [hostOps1] c main_v4
      = Host.divf (Host.reduceAdd (shapeCast S64 (extractStridedSlice S64x1x1 ![0, 0, 0] (outArr m c) slices_S64x8x128_S64x1x1_0_0_0) shapeCasts_S64x1x1_S64)
          (constant (F := Ideal) S_ .f32 0x00000000#32) reducesTo_S64_S_d0 h_S_) (constant (F := Ideal) S_ .f32 0x46800000#32) := by
  unfold Pipeline.afterTail₀
  show StableHlo.after hostOps1 _ (Proc.devRef .tc main_v4) = _
  after_results
  rw [(Pipeline.withArrays_arr spec0 launch0.win.arr_inj c _ _ 2).trans (final m c)]
  rfl

/-- THE KERNEL'S RESULT is the reference's result term of the two argument arrays. Both are
    (0 + a sum of cell losses) / 16384; the kernel's sum runs over the 64 tiles and, inside a tile, over its cells, the
    reference's over every cell of the batch, and addition on the extended reals is commutative and associative. -/
theorem result_eq (c : Dev nD) :
    Pipeline.afterTail₀ cfgs (dats m) 0 (V0 m) [hostOps1] c main_v4
      = Cert.ReferenceIdeal.ReadP.val_main_v220 (F := Ideal) (m ((c : Thread nD τ).loc main_arg0)) (m ((c : Thread nD τ).loc main_arg1)) := by
  rw [tail_eq]
  funext i
  rw [Cert.ReferenceIdeal.ReadP.val_main_v220_apply, Cert.ReferenceIdeal.ReadP.val_main_v219_apply]
  refine congrArg₂ FloatOps.hostDivf ?_ rfl
  have e : ∀ X : FVec Ideal S64 .f32, Host.reduceAdd X (constant (F := Ideal) S_ .f32 0x00000000#32) reducesTo_S64_S_d0 h_S_ i
      = Ideal.ofBits .f32 0x00000000#32 + ∑ u : S64.Idx, X u := fun X => by
    simp only [Host.reduceAdd, Ideal.hostReduceAdd_def]
    exact Ideal.hostReduceAdd_total reducesTo_S64_S_d0 (fun b => b.elim0) _ _ i
  rw [e]
  refine congrArg₂ (· + ·) rfl ?_
  refine (SumIdx.sum_idx1 _).trans ((Finset.sum_congr rfl fun t _ => ?_).trans (SumIdx.sum_batch_tiles _).symm)
  refine (shapeCast_apply _ shapeCasts_S64x1x1_S64 (ix1 t) (ix3 t (0 : Fin 1) (0 : Fin 1)) (by
    rw [Shape.rowMajor_val_three, Shape.rowMajor_val_one]
    show (t.val * 1 + 0) * 1 + 0 = t.val
    omega)).trans ?_
  refine (extractStridedSlice_apply ![0, 0, 0] (outArr m c) slices_S64x8x128_S64x1x1_0_0_0 (ix3 t (0 : Fin 1) (0 : Fin 1))
    (ix3 t (0 : Fin 8) (0 : Fin 128)) (fun a => match a with
      | ⟨0, _⟩ => by show t.val = 0 + t.val; omega
      | ⟨1, _⟩ => rfl
      | ⟨2, _⟩ => rfl)).trans ?_
  exact outArr_at m c _ rfl rfl t rfl

/-- The run, read: every weakly fair execution of the idealized kernel program ends with its result at the reference's
    term of the arguments, and the arguments unchanged. -/
theorem run : θ_run defs (onTc (τ := τ) (main (F := Ideal))) ⟨m, fun _ => 0, ρ⟩ fun r => ∀ c : Dev nD,
      r.2.mem ((c : Thread nD τ).loc main_v4)
        = Cert.ReferenceIdeal.ReadP.val_main_v220 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v4 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Hand

end
-- ==== Proof.lean ====
/-
  The tiled YOLO-style loss against its whole-array reference, on the extended reals.
  The reference computes, for every cell (b, i, j) of a [16384, 7, 7] grid, a loss from the cell's 30 predicted and 8
  true channels — two intersection-over-union quotients, squared coordinate and square-root-size differences, a
  squared difference to a one-hot class vector, and a select between the "object" and "no object" cases — then adds
  the losses of all cells and divides by 16384. The kernel cuts the batch axis into 64 tiles of 256, computes the same
  cell losses inside each tile, adds them up per tile, and the host adds the 64 tile sums and divides by 16384.
  The two results are one extended real: inside a tile every operation acts cell by cell, so the kernel's array of cell
  losses over tile t is the tile of the reference's (Proof/LibBatchTile.lean, Proof/LossTile.lean); and a sum over
  all cells is the sum over tiles of the sums over a tile's cells, addition on the extended reals being commutative and
  associative (Proof/SumIdx.lean). No law used needs finiteness, so the precondition is never opened.
  Proof/KernelValue.lean reads the call's result array off the frame run (each grid point's block, and that the 64
  blocks cover it); Proof/KernelResult.lean reads the host lines after the call and joins the two sides.
  The kernel programs' frames are the generated ones; the reference's is its run (Proof/RefRun.lean: the line of host
  operations walked once by Proof/LibHloEnv.lean) with the result dropped; nothing was rewritten by the idealization, so
  `preserves` is `True`.
-/
import proofs.«166144_j38079180046686_2_alg».proof.Defs
import proofs.«166144_j38079180046686_2_alg».proof.Proof.Gen.Kernel
import proofs.«166144_j38079180046686_2_alg».proof.Proof.Gen.Kernel.Skeleton
import proofs.«166144_j38079180046686_2_alg».proof.Proof.Gen.Kernel.Launch
import proofs.«166144_j38079180046686_2_alg».proof.Proof.Gen.Kernel.Points
import proofs.«166144_j38079180046686_2_alg».proof.Proof.Gen.Kernel.Frame
import proofs.«166144_j38079180046686_2_alg».proof.Proof.Gen.KernelIdeal
import proofs.«166144_j38079180046686_2_alg».proof.Proof.Gen.KernelIdeal.Skeleton
import proofs.«166144_j38079180046686_2_alg».proof.Proof.Gen.KernelIdeal.Launch
import proofs.«166144_j38079180046686_2_alg».proof.Proof.Gen.KernelIdeal.Points
import proofs.«166144_j38079180046686_2_alg».proof.Proof.Gen.KernelIdeal.Frame
import proofs.«166144_j38079180046686_2_alg».proof.Proof.Gen.ReferenceIdeal
import proofs.«166144_j38079180046686_2_alg».proof.Proof.Gen.Pre_finite_inputs
import proofs.«166144_j38079180046686_2_alg».proof.Proof.RefRun
import proofs.«166144_j38079180046686_2_alg».proof.Proof.RefRead
import proofs.«166144_j38079180046686_2_alg».proof.Proof.KernelResult
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end at the reference's result term of the (agreeing) argument arrays. -/
theorem algebraic : Cert.algebraic_KernelIdeal_ReferenceIdeal := by
  intro m ρ m' ρ' _ hagree
  refine ⟨fun c => Cert.ReferenceIdeal.ReadP.val_main_v220 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
